-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S128x128 : Shape := ⟨2, ![128, 128]⟩
abbrev S128 : Shape := ⟨1, ![128]⟩
abbrev S256x128 : Shape := ⟨2, ![256, 128]⟩
abbrev S2x640000 : Shape := ⟨2, ![2, 640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S256x128 .f32) (main_arg8 : FVec F S128 .f32) (main_arg9 : FVec F S128 .f32) (main_arg10 : FVec F S128 .f32) (main_arg11 : FVec F S128x128 .f32) (main_arg12 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S256x128 .f32) (main_arg8 : FVec F S128 .f32) (main_arg9 : FVec F S128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S40000x128 .f32) (main_arg1 : FVec F S128x128 .f32) (main_arg2 : FVec F S128 .f32) (main_arg3 : FVec F S128 .f32) (main_arg4 : FVec F S128 .f32) (main_arg5 : FVec F S128x128 .f32) (main_arg6 : FVec F S128 .f32) (main_arg7 : FVec F S256x128 .f32) (main_arg8 : FVec F S128 .f32) (main_arg9 : FVec F S128 .f32) (main_arg10 : FVec F S128 .f32) (main_arg11 : FVec F S128x128 .f32) (main_arg12 : FVec F S128 .f32) (main_arg13 : IVec S2x640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S40000x128 : Shape := ⟨2, ![40000, 128]⟩
abbrev S128x128 : Shape := ⟨2, ![128, 128]⟩
abbrev S128 : Shape := ⟨1, ![128]⟩
abbrev S256x128 : Shape := ⟨2, ![256, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S8000x128 : Shape := ⟨2, ![8000, 128]⟩
abbrev S8000 : Shape := ⟨1, ![8000]⟩
abbrev S8000x1 : Shape := ⟨2, ![8000, 1]⟩
abbrev S20000x128 : Shape := ⟨2, ![20000, 128]⟩
abbrev S20000 : Shape := ⟨1, ![20000]⟩
abbrev S20000x1 : Shape := ⟨2, ![20000, 1]⟩
abbrev S40000 : Shape := ⟨1, ![40000]⟩
abbrev S40000x1 : Shape := ⟨2, ![40000, 1]⟩

abbrev nBuf : Space → Nat
  | .hbm => 89
  | .vmem => 23
  | .smem => 0
  | _ => 0

abbrev bufTy : (tb : Table) → Fin (tcTables nBuf tb) → BufTy
  | .hbm, ⟨0, _⟩ => ⟨S40000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S2x640000, .i32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S40000x128, .bf16⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .bf16⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S640000x128, .f32⟩
  | .hbm, ⟨33, _⟩ => ⟨S_, .f32⟩
  | .hbm, ⟨34, _⟩ => ⟨S20000x128, .f32⟩
  | .hbm, ⟨35, _⟩ => ⟨S640000x1, .i32⟩
  | .hbm, ⟨36, _⟩ => ⟨S20000x128, .f32⟩
  | .hbm, ⟨37, _⟩ => ⟨S_, .f32⟩
  | .hbm, ⟨38, _⟩ => ⟨S640000, .f32⟩
  | .hbm, ⟨39, _⟩ => ⟨S_, .f32⟩
  | .hbm, ⟨40, _⟩ => ⟨S20000, .f32⟩
  | .hbm, ⟨41, _⟩ => ⟨S640000x1, .i32⟩
  | .hbm, ⟨42, _⟩ => ⟨S20000, .f32⟩
  | .hbm, ⟨43, _⟩ => ⟨S_, .f32⟩
  | .hbm, ⟨44, _⟩ => ⟨S20000, .f32⟩
  | .hbm, ⟨45, _⟩ => ⟨S20000, .f32⟩
  | .hbm, ⟨46, _⟩ => ⟨S20000x1, .f32⟩
  | .hbm, ⟨47, _⟩ => ⟨S20000x128, .f32⟩
  | .hbm, ⟨48, _⟩ => ⟨S20000x128, .f32⟩
  | .hbm, ⟨49, _⟩ => ⟨S20000x128, .bf16⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .bf16⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S640000x128, .f32⟩
  | .hbm, ⟨66, _⟩ => ⟨S_, .f32⟩
  | .hbm, ⟨67, _⟩ => ⟨S40000x128, .f32⟩
  | .hbm, ⟨68, _⟩ => ⟨S640000x1, .i32⟩
  | .hbm, ⟨69, _⟩ => ⟨S40000x128, .f32⟩
  | .hbm, ⟨70, _⟩ => ⟨S_, .f32⟩
  | .hbm, ⟨71, _⟩ => ⟨S640000, .f32⟩
  | .hbm, ⟨72, _⟩ => ⟨S_, .f32⟩
  | .hbm, ⟨73, _⟩ => ⟨S40000, .f32⟩
  | .hbm, ⟨74, _⟩ => ⟨S640000x1, .i32⟩
  | .hbm, ⟨75, _⟩ => ⟨S40000, .f32⟩
  | .hbm, ⟨76, _⟩ => ⟨S_, .f32⟩
  | .hbm, ⟨77, _⟩ => ⟨S40000, .f32⟩
  | .hbm, ⟨78, _⟩ => ⟨S40000, .f32⟩
  | .hbm, ⟨79, _⟩ => ⟨S40000x1, .f32⟩
  | .hbm, ⟨80, _⟩ => ⟨S40000x128, .f32⟩
  | .hbm, ⟨81, _⟩ => ⟨S40000x128, .f32⟩
  | .hbm, ⟨82, _⟩ => ⟨S_, .f32⟩
  | .hbm, ⟨83, _⟩ => ⟨S40000x128, .f32⟩
  | .hbm, ⟨84, _⟩ => ⟨S40000x128, .f32⟩
  | .hbm, ⟨85, _⟩ => ⟨S_, .f32⟩
  | .hbm, ⟨86, _⟩ => ⟨S40000x128, .f32⟩
  | .hbm, ⟨87, _⟩ => ⟨S40000x128, .f32⟩
  | .hbm, ⟨88, _⟩ => ⟨S40000x128, .f32⟩
  | .local _ .vmem, ⟨0, _⟩ => ⟨S8000x128, .bf16⟩
  | .local _ .vmem, ⟨1, _⟩ => ⟨S8000x128, .bf16⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S8000x128, .f32⟩
  | .local _ .vmem, ⟨9, _⟩ => ⟨S8000x128, .f32⟩
  | .local _ .vmem, ⟨10, _⟩ => ⟨S8000x128, .bf16⟩
  | .local _ .vmem, ⟨11, _⟩ => ⟨S8000x128, .bf16⟩
  | .local _ .vmem, ⟨12, _⟩ => ⟨S8000x128, .bf16⟩
  | .local _ .vmem, ⟨13, _⟩ => ⟨S8000x128, .bf16⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S8000x128, .f32⟩
  | .local _ .vmem, ⟨22, _⟩ => ⟨S8000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  slices_S256x128_S128x128_0_0 : S256x128.Slices ![0, 0] S128x128
  slices_S256x128_S128x128_128_0 : S256x128.Slices ![128, 0] S128x128
  shapeCasts_S128x128_S128x128 : S128x128.ShapeCasts S128x128
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S8000x128_S128x128_S8000x128_1_0_0_1_n_n_wf : DotDims.WF S8000x128 S128x128 S8000x128 [1] [0] [0] [1] [] []
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  gather_S20000x128_S640000x1_S640000x128_1_0_n_n_0_1_1128_wf : GatherDims.WF S20000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .bf16 = 32 ∨ (Rect.block (s := S640000x128) S8000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S640000x128.size a
  hwx0_7 : ∀ i : grid0.Coords, EltTy.bits .f32 = 32 ∨ (Rect.block (s := S640000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .bf16 = 32 ∨ (Rect.block (s := S640000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S640000x128.size a
  hwx1_1 : ∀ i : grid1.Coords, EltTy.bits .bf16 = 32 ∨ (Rect.block (s := S640000x128) S8000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x128.size a ≤ S640000x128.size a
  hwx1_9 : ∀ i : grid1.Coords, EltTy.bits .f32 = 32 ∨ (Rect.block (s := S640000x128) S8000x128.size (cc1_transform_9 i) (hinb1_9 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v11) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S8000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S40000x128 : Shape := ⟨2, ![40000, 128]⟩
abbrev S128x128 : Shape := ⟨2, ![128, 128]⟩
abbrev S128 : Shape := ⟨1, ![128]⟩
abbrev S256x128 : Shape := ⟨2, ![256, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S20000x128 : Shape := ⟨2, ![20000, 128]⟩
abbrev S20000 : Shape := ⟨1, ![20000]⟩
abbrev S20000x1 : Shape := ⟨2, ![20000, 1]⟩
abbrev S640000x256 : Shape := ⟨2, ![640000, 256]⟩
abbrev S40000 : Shape := ⟨1, ![40000]⟩
abbrev S40000x1 : Shape := ⟨2, ![40000, 1]⟩

abbrev nBuf : Space → Nat
  | .hbm => 165
  | .vmem => 0
  | .smem => 0
  | _ => 0

abbrev hbmTy0_0 (i : Nat) : BufTy := match i % 128 with
  | 0 => ⟨S40000x128, .f32⟩
  | 1 => ⟨S128x128, .f32⟩
  | 2 => ⟨S128, .f32⟩
  | 3 => ⟨S128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128, .f32⟩
  | 10 => ⟨S128, .f32⟩
  | 11 => ⟨S128x128, .f32⟩
  | 12 => ⟨S128, .f32⟩
  | 13 => ⟨S2x640000, .i32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S640000x128, .f32⟩
  | 28 => ⟨S1x128, .f32⟩
  | 29 => ⟨S640000x128, .f32⟩
  | 30 => ⟨S640000x128, .f32⟩
  | 31 => ⟨S_, .f32⟩
  | 32 => ⟨S640000, .f32⟩
  | 33 => ⟨S640000x1, .f32⟩
  | 34 => ⟨S_, .f32⟩
  | 35 => ⟨S640000x1, .f32⟩
  | 36 => ⟨S640000x1, .f32⟩
  | 37 => ⟨S640000x128, .f32⟩
  | 38 => ⟨S640000x128, .f32⟩
  | 39 => ⟨S640000x128, .f32⟩
  | 40 => ⟨S_, .f32⟩
  | 41 => ⟨S640000, .f32⟩
  | 42 => ⟨S640000x1, .f32⟩
  | 43 => ⟨S_, .f32⟩
  | 44 => ⟨S640000x1, .f32⟩
  | 45 => ⟨S640000x1, .f32⟩
  | 46 => ⟨S640000x128, .f32⟩
  | 47 => ⟨S640000x128, .f32⟩
  | 48 => ⟨S_, .f32⟩
  | 49 => ⟨S640000x1, .f32⟩
  | 50 => ⟨S640000x1, .f32⟩
  | 51 => ⟨S640000x1, .f32⟩
  | 52 => ⟨S640000x128, .f32⟩
  | 53 => ⟨S640000x128, .f32⟩
  | 54 => ⟨S1x128, .f32⟩
  | 55 => ⟨S640000x128, .f32⟩
  | 56 => ⟨S640000x128, .f32⟩
  | 57 => ⟨S1x128, .f32⟩
  | 58 => ⟨S640000x128, .f32⟩
  | 59 => ⟨S640000x128, .f32⟩
  | 60 => ⟨S_, .f32⟩
  | 61 => ⟨S640000x128, .f32⟩
  | 62 => ⟨S640000x128, .f32⟩
  | 63 => ⟨S640000x128, .f32⟩
  | 64 => ⟨S1x128, .f32⟩
  | 65 => ⟨S640000x128, .f32⟩
  | 66 => ⟨S640000x128, .f32⟩
  | 67 => ⟨S_, .f32⟩
  | 68 => ⟨S20000x128, .f32⟩
  | 69 => ⟨S640000x1, .i32⟩
  | 70 => ⟨S20000x128, .f32⟩
  | 71 => ⟨S_, .f32⟩
  | 72 => ⟨S640000, .f32⟩
  | 73 => ⟨S_, .f32⟩
  | 74 => ⟨S20000, .f32⟩
  | 75 => ⟨S640000x1, .i32⟩
  | 76 => ⟨S20000, .f32⟩
  | 77 => ⟨S_, .f32⟩
  | 78 => ⟨S20000, .f32⟩
  | 79 => ⟨S20000, .f32⟩
  | 80 => ⟨S20000x1, .f32⟩
  | 81 => ⟨S20000x128, .f32⟩
  | 82 => ⟨S20000x128, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x128, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000x128, .f32⟩
  | 101 => ⟨S640000x256, .f32⟩
  | 102 => ⟨S640000x128, .f32⟩
  | 103 => ⟨S1x128, .f32⟩
  | 104 => ⟨S640000x128, .f32⟩
  | 105 => ⟨S640000x128, .f32⟩
  | 106 => ⟨S_, .f32⟩
  | 107 => ⟨S640000, .f32⟩
  | 108 => ⟨S640000x1, .f32⟩
  | 109 => ⟨S_, .f32⟩
  | 110 => ⟨S640000x1, .f32⟩
  | 111 => ⟨S640000x1, .f32⟩
  | 112 => ⟨S640000x128, .f32⟩
  | 113 => ⟨S640000x128, .f32⟩
  | 114 => ⟨S640000x128, .f32⟩
  | 115 => ⟨S_, .f32⟩
  | 116 => ⟨S640000, .f32⟩
  | 117 => ⟨S640000x1, .f32⟩
  | 118 => ⟨S_, .f32⟩
  | 119 => ⟨S640000x1, .f32⟩
  | 120 => ⟨S640000x1, .f32⟩
  | 121 => ⟨S640000x128, .f32⟩
  | 122 => ⟨S640000x128, .f32⟩
  | 123 => ⟨S_, .f32⟩
  | 124 => ⟨S640000x1, .f32⟩
  | 125 => ⟨S640000x1, .f32⟩
  | 126 => ⟨S640000x1, .f32⟩
  | 127 => ⟨S640000x128, .f32⟩
  | _ => ⟨S40000x128, .f32⟩

abbrev hbmTy0_1 (i : Nat) : BufTy := match i % 128 with
  | 0 => ⟨S640000x128, .f32⟩
  | 1 => ⟨S1x128, .f32⟩
  | 2 => ⟨S640000x128, .f32⟩
  | 3 => ⟨S640000x128, .f32⟩
  | 4 => ⟨S1x128, .f32⟩
  | 5 => ⟨S640000x128, .f32⟩
  | 6 => ⟨S640000x128, .f32⟩
  | 7 => ⟨S_, .f32⟩
  | 8 => ⟨S640000x128, .f32⟩
  | 9 => ⟨S640000x128, .f32⟩
  | 10 => ⟨S640000x128, .f32⟩
  | 11 => ⟨S1x128, .f32⟩
  | 12 => ⟨S640000x128, .f32⟩
  | 13 => ⟨S640000x128, .f32⟩
  | 14 => ⟨S_, .f32⟩
  | 15 => ⟨S40000x128, .f32⟩
  | 16 => ⟨S640000x1, .i32⟩
  | 17 => ⟨S40000x128, .f32⟩
  | 18 => ⟨S_, .f32⟩
  | 19 => ⟨S640000, .f32⟩
  | 20 => ⟨S_, .f32⟩
  | 21 => ⟨S40000, .f32⟩
  | 22 => ⟨S640000x1, .i32⟩
  | 23 => ⟨S40000, .f32⟩
  | 24 => ⟨S_, .f32⟩
  | 25 => ⟨S40000, .f32⟩
  | 26 => ⟨S40000, .f32⟩
  | 27 => ⟨S40000x1, .f32⟩
  | 28 => ⟨S40000x128, .f32⟩
  | 29 => ⟨S40000x128, .f32⟩
  | 30 => ⟨S_, .f32⟩
  | 31 => ⟨S40000x128, .f32⟩
  | 32 => ⟨S40000x128, .f32⟩
  | 33 => ⟨S_, .f32⟩
  | 34 => ⟨S40000x128, .f32⟩
  | 35 => ⟨S40000x128, .f32⟩
  | 36 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call0_cst : Ref sig .tc := ⟨.hbm, 60, rfl⟩
abbrev main_call0_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_11 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_call1_cst : Ref sig .tc := ⟨.hbm, 135, rfl⟩
abbrev main_call1_v0 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_18 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_19 : Ref sig .tc := ⟨.hbm, 146, rfl⟩
abbrev main_v107 : Ref sig .tc := ⟨.hbm, 147, rfl⟩
abbrev main_cst_20 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_21 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_22 : Ref sig .tc := ⟨.hbm, 158, rfl⟩
abbrev main_v116 : Ref sig .tc := ⟨.hbm, 159, rfl⟩
abbrev main_v117 : Ref sig .tc := ⟨.hbm, 160, rfl⟩
abbrev main_cst_23 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S_S640000x128 : S_.BroadcastsInDim S640000x128 (![] : Fin 0 → Fin S640000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  concatenates_S640000x128_S640000x128_S640000x256_d1 : Shape.Concatenates [S640000x128, S640000x128] S640000x256 1
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  gather_S20000x128_S640000x1_S640000x128_1_0_n_n_0_1_1128_wf : GatherDims.WF S20000x128 S640000x1 S640000x128 [1] [0] [] [0] [] 1 ![1, 128]
  dot_S640000x256_S256x128_S640000x128_1_0_0_1_n_n_wf : DotDims.WF S640000x256 S256x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.KernelRun.lean ====
/-
  The idealized kernel's run with its result named.

  @main is five stretches: host operations, the first perceptron's pipeline, host operations, the second
  perceptron's pipeline, host operations. The buffer contents at the five boundaries are a fold from the launch
  memory — a stretch of host operations applies its operations in order, a pipeline leaves each of its arrays at what
  its write-backs leave and every other buffer as it found it. Every weakly fair execution terminates with every
  unscoped buffer at the last boundary's contents; read at the result buffer this is the value of the run, and read
  at an argument buffer it is the launch contents, since nothing writes an argument.
-/
import proofs.«129298_j49658411876808_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v60) = W5 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v60 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.KernelIdeal.RunValue

end
-- ==== Proof.Stretches.lean ====
/-
  The three stretches of host operations of the idealized kernel's @main, read at the buffers the proof needs.

  A stretch applies its operations in order to whatever the buffers hold when it starts. Read at one buffer, the
  result is the composition of the operations that feed that buffer, applied to the starting contents of the buffers
  they read; a buffer that no operation of the stretch writes keeps its contents. The index vectors (a row of the
  incidence list, with negative entries wrapped), the gathers, the scatter-sums with their counts, and the final mix
  are the same operations, in the same order, as the reference applies: each such composition IS the reference's
  stage of the same name, as a function of the same data. On the extended reals a change of float format is the
  identity, so the kernel's gathers of narrowed arrays are the reference's gathers.
-/
import proofs.«129298_j49658411876808_2_alg».proof.Proof.Gen.KernelIdeal.Frame
import proofs.«129298_j49658411876808_2_alg».proof.Proof.Gen.ReferenceIdeal.Read
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

variable (X : Valuation τ sig (Elt Ideal))

/-! ## Before the first pipeline -/

/-- The node row of the incidence list. -/
theorem s0_v1 : after hostOps0 X (Proc.devRef .tc main_v1)
    = Cert.ReferenceIdeal.Read.val_main_v1 (F := Ideal) (X (Proc.devRef .tc main_arg13)) := by
  after_results; rfl

/-- The hyperedge row of the incidence list. -/
theorem s0_v3 : after hostOps0 X (Proc.devRef .tc main_v3)
    = Cert.ReferenceIdeal.Read.val_main_v3 (F := Ideal) (X (Proc.devRef .tc main_arg13)) := by
  after_results; rfl

/-- The node features gathered along the node row. -/
theorem s0_v11 : after hostOps0 X (Proc.devRef .tc main_v11)
    = Cert.ReferenceIdeal.Read.val_main_v10 (F := Ideal) (X (Proc.devRef .tc main_arg0)) (X (Proc.devRef .tc main_arg13)) := by
  after_results; rfl

/-- The bias, gain and shift vectors of the first perceptron, each kept as a 1 × 128 array. -/
theorem s0_v12 : after hostOps0 X (Proc.devRef .tc main_v12)
    = shapeCast S1x128 (X (Proc.devRef .tc main_arg2)) shapeCasts_S128_S1x128 := by
  after_results; rfl
theorem s0_v13 : after hostOps0 X (Proc.devRef .tc main_v13)
    = shapeCast S1x128 (X (Proc.devRef .tc main_arg3)) shapeCasts_S128_S1x128 := by
  after_results; rfl
theorem s0_v14 : after hostOps0 X (Proc.devRef .tc main_v14)
    = shapeCast S1x128 (X (Proc.devRef .tc main_arg4)) shapeCasts_S128_S1x128 := by
  after_results; rfl
theorem s0_v15 : after hostOps0 X (Proc.devRef .tc main_v15)
    = shapeCast S1x128 (X (Proc.devRef .tc main_arg6)) shapeCasts_S128_S1x128 := by
  after_results; rfl

/-- What the stretch does not write. -/
theorem s0_keep_arg0 : after hostOps0 X (Proc.devRef .tc main_arg0) = X (Proc.devRef .tc main_arg0) := by
  after_results
theorem s0_keep_arg1 : after hostOps0 X (Proc.devRef .tc main_arg1) = X (Proc.devRef .tc main_arg1) := by
  after_results
theorem s0_keep_arg5 : after hostOps0 X (Proc.devRef .tc main_arg5) = X (Proc.devRef .tc main_arg5) := by
  after_results
theorem s0_keep_arg7 : after hostOps0 X (Proc.devRef .tc main_arg7) = X (Proc.devRef .tc main_arg7) := by
  after_results
theorem s0_keep_arg8 : after hostOps0 X (Proc.devRef .tc main_arg8) = X (Proc.devRef .tc main_arg8) := by
  after_results
theorem s0_keep_arg9 : after hostOps0 X (Proc.devRef .tc main_arg9) = X (Proc.devRef .tc main_arg9) := by
  after_results
theorem s0_keep_arg10 : after hostOps0 X (Proc.devRef .tc main_arg10) = X (Proc.devRef .tc main_arg10) := by
  after_results
theorem s0_keep_arg11 : after hostOps0 X (Proc.devRef .tc main_arg11) = X (Proc.devRef .tc main_arg11) := by
  after_results
theorem s0_keep_arg12 : after hostOps0 X (Proc.devRef .tc main_arg12) = X (Proc.devRef .tc main_arg12) := by
  after_results

/-! ## Between the pipelines -/

/-- A gather of a narrowed array is the gather of the array: on the extended reals a change of float format is
    the identity. -/
theorem gather_narrowed (Y : (⟨S20000x128, .f32⟩ : BufTy).Contents (Elt Ideal)) (J : (⟨S640000x1, .i32⟩ : BufTy).Contents (Elt Ideal)) :
    (Host.gather gather_S20000x128_S640000x1_S640000x128_1_0_n_n_0_1_1128 (truncf (F := Ideal) .bf16 Y bitsLt_bf16_f32) J
        : S640000x128.Idx → EReal)
      = (Host.gather Cert.ReferenceIdeal.gather_S20000x128_S640000x1_S640000x128_1_0_n_n_0_1_1128 Y J
        : S640000x128.Idx → EReal) := rfl

set_option maxHeartbeats 4000000 in
/-- The scatter-mean of the first perceptron's rows onto the hyperedges, gathered back along the hyperedge row:
    the reference's stage, when the first pipeline's output is the reference's first perceptron. -/
theorem s1_v36 (x0 : (⟨Cert.ReferenceIdeal.S40000x128, .f32⟩ : BufTy).Contents (Elt Ideal)) (x1 : (⟨Cert.ReferenceIdeal.S128x128, .f32⟩ : BufTy).Contents (Elt Ideal))
    (x2 x3 x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x13 : (⟨Cert.ReferenceIdeal.S2x640000, .i32⟩ : BufTy).Contents (Elt Ideal))
    (h16 : X (Proc.devRef .tc main_v16) = Cert.ReferenceIdeal.Read.val_main_v43 (F := Ideal) x0 x1 x2 x3 x4 x5 x6 x13)
    (h3 : X (Proc.devRef .tc main_v3) = Cert.ReferenceIdeal.Read.val_main_v3 (F := Ideal) x13) :
    after hostOps1 X (Proc.devRef .tc main_v36) = Cert.ReferenceIdeal.Read.val_main_v62 (F := Ideal) x0 x1 x2 x3 x4 x5 x6 x13 := by
  after_results_simp
  rw [h16, h3]
  refine (gather_narrowed _ _).trans ?_
  unfold Cert.ReferenceIdeal.Read.val_main_v62
  refine congrArg₂ (Host.gather Cert.ReferenceIdeal.gather_S20000x128_S640000x1_S640000x128_1_0_n_n_0_1_1128) ?_ ?_
  · rfl
  · rfl

/-- The upper and the lower half of the second perceptron's first-layer weights. -/
theorem s1_v37 : after hostOps1 X (Proc.devRef .tc main_v37)
    = extractStridedSlice S128x128 ![0, 0] (X (Proc.devRef .tc main_arg7)) slices_S256x128_S128x128_0_0 := by
  after_results
theorem s1_v38 : after hostOps1 X (Proc.devRef .tc main_v38)
    = extractStridedSlice S128x128 ![128, 0] (X (Proc.devRef .tc main_arg7)) slices_S256x128_S128x128_128_0 := by
  after_results

/-- The bias, gain and shift vectors of the second perceptron, each kept as a 1 × 128 array. -/
theorem s1_v39 : after hostOps1 X (Proc.devRef .tc main_v39)
    = shapeCast S1x128 (X (Proc.devRef .tc main_arg8)) shapeCasts_S128_S1x128 := by
  after_results; rfl
theorem s1_v40 : after hostOps1 X (Proc.devRef .tc main_v40)
    = shapeCast S1x128 (X (Proc.devRef .tc main_arg9)) shapeCasts_S128_S1x128 := by
  after_results; rfl
theorem s1_v41 : after hostOps1 X (Proc.devRef .tc main_v41)
    = shapeCast S1x128 (X (Proc.devRef .tc main_arg10)) shapeCasts_S128_S1x128 := by
  after_results; rfl
theorem s1_v42 : after hostOps1 X (Proc.devRef .tc main_v42)
    = shapeCast S1x128 (X (Proc.devRef .tc main_arg12)) shapeCasts_S128_S1x128 := by
  after_results; rfl

/-- What the stretch does not write. -/
theorem s1_keep_v11 : after hostOps1 X (Proc.devRef .tc main_v11) = X (Proc.devRef .tc main_v11) := by
  after_results
theorem s1_keep_arg11 : after hostOps1 X (Proc.devRef .tc main_arg11) = X (Proc.devRef .tc main_arg11) := by
  after_results
theorem s1_keep_v1 : after hostOps1 X (Proc.devRef .tc main_v1) = X (Proc.devRef .tc main_v1) := by
  after_results
theorem s1_keep_arg0 : after hostOps1 X (Proc.devRef .tc main_arg0) = X (Proc.devRef .tc main_arg0) := by
  after_results

/-! ## After the second pipeline -/

set_option maxHeartbeats 4000000 in
/-- The scatter-mean of the second perceptron's rows onto the nodes, mixed with the node features: the reference's
    result, when the second pipeline's output is the reference's second perceptron. -/
theorem s2_v60 (x0 : (⟨Cert.ReferenceIdeal.S40000x128, .f32⟩ : BufTy).Contents (Elt Ideal)) (x1 : (⟨Cert.ReferenceIdeal.S128x128, .f32⟩ : BufTy).Contents (Elt Ideal))
    (x2 x3 x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 : (⟨Cert.ReferenceIdeal.S256x128, .f32⟩ : BufTy).Contents (Elt Ideal))
    (x8 x9 x10 : (⟨Cert.ReferenceIdeal.S128, .f32⟩ : BufTy).Contents (Elt Ideal)) (x11 : (⟨Cert.ReferenceIdeal.S128x128, .f32⟩ : BufTy).Contents (Elt Ideal))
    (x12 : (⟨Cert.ReferenceIdeal.S128, .f32⟩ : BufTy).Contents (Elt Ideal)) (x13 : (⟨Cert.ReferenceIdeal.S2x640000, .i32⟩ : BufTy).Contents (Elt Ideal))
    (h43 : X (Proc.devRef .tc main_v43) = Cert.ReferenceIdeal.Read.val_main_v103 (F := Ideal) x0 x1 x2 x3 x4 x5 x6 x7 x8 x9 x10 x11 x12 x13)
    (h1 : X (Proc.devRef .tc main_v1) = Cert.ReferenceIdeal.Read.val_main_v1 (F := Ideal) x13)
    (h0 : X (Proc.devRef .tc main_arg0) = x0) :
    after hostOps2 X (Proc.devRef .tc main_v60) = Cert.ReferenceIdeal.Read.val_main_v120 (F := Ideal) x0 x1 x2 x3 x4 x5 x6 x7 x8 x9 x10 x11 x12 x13 := by
  after_results_simp
  rw [h43, h1, h0]
  rfl

end Cert.KernelIdeal.Stretches

end
-- ==== Proof.RowMlp.lean ====
/-
  One row through a two-layer perceptron with a layer normalisation between the layers, on the extended reals.

  A row `h` of 128 pre-activations is centred at its mean `(Σ_j h_j) / 128`, scaled by the reciprocal square root of
  its variance `(Σ_j (h_j − mean)²) / 128` plus a small constant, multiplied lane by lane by a gain `g`, shifted by a
  bias `be`, and cut below at zero; the row so obtained is multiplied into a 128 × 128 weight matrix `w` and shifted
  by a second bias `b`. The three float constants are kept as the words the programs carry (128, the small constant,
  zero): both programs carry the same words, so they are never evaluated.

  Also here: a sum over 256 lanes is the sum over the first 128 plus the sum over the last 128 — the one law that joins
  a product with a matrix of 256 rows to the sum of the two products with its upper and lower halves. Addition on
  the extended reals is commutative and associative, so no finiteness is needed for it.
-/
import Idealize.ShloMosaic.PureOps.Ideal
import Idealize.ShloMosaic.PureOps.Ideal.Laws

noncomputable section

namespace Cert.RowMlp

open Idealize.ShloMosaic

/-- The divisor 128, as the float word both programs carry. -/
abbrev lanes : EReal := Ideal.ofBits .f32 0x43000000#32
/-- The small constant added to the variance, as the float word both programs carry. -/
abbrev tiny : EReal := Ideal.ofBits .f32 0x3727C5AC#32
/-- Zero, as the float word both programs carry. -/
abbrev nought : EReal := Ideal.ofBits .f32 0x00000000#32

/-- The mean of a row. -/
def mean (h : Fin 128 → EReal) : EReal := Ideal.div (∑ j : Fin 128, h j) lanes

/-- The reciprocal square root of the row's variance plus the small constant. -/
def scale (h : Fin 128 → EReal) : EReal :=
  Ideal.rsqrt (Ideal.div (∑ j : Fin 128, (h j - mean h) * (h j - mean h)) lanes + tiny)

/-- The normalised row with gain and bias, cut below at zero. -/
def act (h g be : Fin 128 → EReal) (j : Fin 128) : EReal := max ((h j - mean h) * scale h * g j + be j) nought

/-- A row times a weight matrix, plus a bias. -/
def lin (y : Fin 128 → EReal) (w : Fin 128 → Fin 128 → EReal) (b : Fin 128 → EReal) (c : Fin 128) : EReal :=
  (∑ k : Fin 128, y k * w k c) + b c

/-- The whole row: normalise, cut at zero, second layer. -/
def mlp (h g be : Fin 128 → EReal) (w : Fin 128 → Fin 128 → EReal) (b : Fin 128 → EReal) : Fin 128 → EReal :=
  lin (act h g be) w b

/-- A sum over 256 lanes is the sum over the first 128 plus the sum over the last 128. -/
theorem sum_halves (f : Fin 256 → EReal) :
    ∑ k : Fin 256, f k = (∑ k : Fin 128, f (Fin.castAdd 128 k)) + ∑ k : Fin 128, f (Fin.natAdd 128 k) :=
  Fin.sum_univ_add (a := 128) (b := 128) (f : Fin (128 + 128) → EReal)

end Cert.RowMlp

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.BlockMlp.lean ====
/-
  The two kernel bodies read at one entry of their output block.

  Each body takes a block of 8000 rows and, row by row, runs the perceptron of the row: the first layer's
  pre-activations, the layer normalisation with gain and bias, the cut at zero, the second layer. Row `p` of the
  output block depends on row `p` of the input block(s) only, and on the whole weight matrices and bias rows. On the
  extended reals a change of float format is the identity, a matrix product into the zero matrix is the plain sum
  of products, and a lane sum is the plain sum over the 128 lanes; the per-row mean and variance are kept as a
  column and spread back over the lanes, which moves no value. So entry `(p, q)` of the output block is the row
  perceptron `RowMlp.mlp` of row `p`'s pre-activations, at lane `q`.

  The first body's pre-activations are one product plus a bias row; the second body's are the sum of two products
  (one per input block, with the upper and the lower half of a 256-row weight matrix) plus a bias row.
-/
import proofs.«129298_j49658411876808_2_alg».proof.Proof.Gen.KernelIdeal.Skeleton
import proofs.«129298_j49658411876808_2_alg».proof.Proof.RowMlp
import proofs.«129298_j49658411876808_2_alg».proof.Proof.LibPlainMatmul
import proofs.«129298_j49658411876808_2_alg».proof.Proof.LibKeepdimsColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.BlockMlp

open Idealize.ShloMosaic Idealize.ShloMosaic.ValueIdx Cert.KernelIdeal Cert.KernelIdeal.Gen

/-- The product of an 8000-row block with a 128 × 128 matrix into the zero matrix, at `(p, c)`. -/
theorem matmul_at {φ₁ φ₂ : FTy} (a : FVec Ideal S8000x128 φ₁) (w : FVec Ideal S128x128 φ₂) (p : Fin 8000) (c : Fin 128) :
    matmul dot_S8000x128_S128x128_S8000x128_1_0_0_1_n_n none a w (constant S8000x128 .f32 0x00000000#32) (ix2 p c)
      = ∑ k : Fin 128, a (ix2 p k) * w (ix2 k c) :=
  Cert.PlainMatmul.plain_apply (M := 8000) (K := 128) (N := 128) a w p c

/-- The lane sum of a block, at row `p`. -/
theorem rowsum_at (v : FVec Ideal S8000x128 .f32) (p : Fin 8000) :
    FloatOps.reduceAdd (F := Ideal) [1] reduces_S8000x128_S8000 v (ix1 p) = ∑ k : Fin 128, v (ix2 p k) :=
  (Ideal.multiReduction_add_single v 0x00000000#32 reduces_S8000x128_S8000 (.inl rfl) rfl (ix1 p)).trans
    (Finset.sum_congr rfl fun k _ => congrArg v (funext fun a => Fin.ext (by
      match a with
      | ⟨0, _⟩ => rfl
      | ⟨1, _⟩ => rfl)))

/-- A per-row value kept as a column, at `(p, 0)`. -/
theorem column_at (v : FVec Ideal S8000 .f32) (p : Fin 8000) :
    shapeCast S8000x1 v shapeCasts_S8000_S8000x1 (ix2 p (0 : Fin 1)) = v (ix1 p) :=
  KeepdimsColumn.shapeCast_a_a1_apply v shapeCasts_S8000_S8000x1 p 0

/-- A column spread over the lanes, at `(p, c)`. -/
theorem lanes_at (v : FVec Ideal S8000x1 .f32) (p : Fin 8000) (c : Fin 128) :
    broadcastTo S8000x128 v broadcasts_S8000x1_S8000x128 (ix2 p c) = v (ix2 p (0 : Fin 1)) :=
  KeepdimsColumn.broadcastTo_a1_ab_apply v broadcasts_S8000x1_S8000x128 p c

/-- A bias row spread over the rows, at `(p, c)`. -/
theorem rows_at (v : FVec Ideal S1x128 .f32) (p : Fin 8000) (c : Fin 128) :
    broadcastTo S8000x128 v broadcasts_S1x128_S8000x128 (ix2 p c) = v (ix2 (0 : Fin 1) c) :=
  broadcastTo_1b_ab_apply v broadcasts_S1x128_S8000x128 p c

/-- Entry `(p, q)` of the first body's output block: the row perceptron of row `p`'s pre-activations
    `Σ_k x0 (p, k) · x1 (k, j) + x2 (0, j)`. -/
theorem mlp1_block (x0 : FVec Ideal S8000x128 .bf16) (x1 : FVec Ideal S128x128 .f32) (x2 x3 x4 : FVec Ideal S1x128 .f32)
    (x5 : FVec Ideal S128x128 .f32) (x6 : FVec Ideal S1x128 .f32) (p : Fin 8000) (q : Fin 128) :
    k0_pay1 (F := Ideal) (k0_pay2 (F := Ideal) x0 x1 x2 x3 x4) (k0_pay3 (F := Ideal) x5) x6 (ix2 p q)
      = RowMlp.mlp (fun j => (∑ k : Fin 128, x0 (ix2 p k) * x1 (ix2 k j)) + x2 (ix2 (0 : Fin 1) j))
          (fun j => x3 (ix2 (0 : Fin 1) j)) (fun j => x4 (ix2 (0 : Fin 1) j)) (fun k j => x5 (ix2 k j))
          (fun j => x6 (ix2 (0 : Fin 1) j)) q := by
  unfold k0_pay1 k0_pay2 k0_pay3 RowMlp.mlp RowMlp.lin RowMlp.act RowMlp.scale RowMlp.mean
  simp only [addf_apply, mulf_apply, subf_apply, divf_apply, maximumf_apply, truncf_apply, broadcast_apply,
    multiReduction, rsqrt, Ideal.rsqrt_def, Ideal.ofBits_def,
    matmul_at, column_at, lanes_at, rows_at, shapeCast_self]
  repeat (rw [rowsum_at]; try simp only [addf_apply, mulf_apply, subf_apply, divf_apply, maximumf_apply, truncf_apply, broadcast_apply,
    multiReduction, rsqrt, Ideal.rsqrt_def, Ideal.ofBits_def,
    matmul_at, column_at, lanes_at, rows_at, shapeCast_self])

/-- Entry `(p, q)` of the second body's output block: the row perceptron of row `p`'s pre-activations
    `Σ_k x0 (p, k) · x2 (k, j) + Σ_k x1 (p, k) · x3 (k, j) + x4 (0, j)`. -/
theorem mlp2_block (x0 x1 : FVec Ideal S8000x128 .bf16) (x2 x3 : FVec Ideal S128x128 .f32) (x4 x5 x6 : FVec Ideal S1x128 .f32)
    (x7 : FVec Ideal S128x128 .f32) (x8 : FVec Ideal S1x128 .f32) (p : Fin 8000) (q : Fin 128) :
    k1_pay1 (F := Ideal) (k1_pay2 (F := Ideal) x0 x1 x2 x3 x4 x5) x6 x7 x8 (ix2 p q)
      = RowMlp.mlp (fun j => ((∑ k : Fin 128, x0 (ix2 p k) * x2 (ix2 k j)) + ∑ k : Fin 128, x1 (ix2 p k) * x3 (ix2 k j))
            + x4 (ix2 (0 : Fin 1) j))
          (fun j => x5 (ix2 (0 : Fin 1) j)) (fun j => x6 (ix2 (0 : Fin 1) j)) (fun k j => x7 (ix2 k j))
          (fun j => x8 (ix2 (0 : Fin 1) j)) q := by
  unfold k1_pay1 k1_pay2 RowMlp.mlp RowMlp.lin RowMlp.act RowMlp.scale RowMlp.mean
  simp only [addf_apply, mulf_apply, subf_apply, divf_apply, maximumf_apply, truncf_apply, broadcast_apply,
    multiReduction, rsqrt, Ideal.rsqrt_def, Ideal.ofBits_def,
    matmul_at, column_at, lanes_at, rows_at, shapeCast_self]
  repeat (rw [rowsum_at]; try simp only [addf_apply, mulf_apply, subf_apply, divf_apply, maximumf_apply, truncf_apply, broadcast_apply,
    multiReduction, rsqrt, Ideal.rsqrt_def, Ideal.ofBits_def,
    matmul_at, column_at, lanes_at, rows_at, shapeCast_self])

end Cert.KernelIdeal.BlockMlp

end
-- ==== Proof.MlpArrays.lean ====
/-
  The two perceptrons over whole arrays.

  Row `r` of the first perceptron's output is the row perceptron of the pre-activations
  `Σ_k a0 (r, k) · a1 (k, j) + a2 (0, j)`, with the gain, the bias, the second layer's weights and its bias read
  off the arrays `a3 … a6` (the bias rows are 1 × 128 arrays). Row `r` of the second perceptron's output is the
  same with the pre-activations `Σ_k a0 (r, k) · a2 (k, j) + Σ_k a1 (r, k) · a3 (k, j) + a4 (0, j)`: two inputs,
  each with its own 128 × 128 first-layer weight matrix.
-/
import proofs.«129298_j49658411876808_2_alg».proof.Proof.RowMlp
import Idealize.ShloMosaic.Lib.ValueIdx

noncomputable section

namespace Cert.RowMlp

open Idealize.ShloMosaic Idealize.ShloMosaic.ValueIdx

/-- The rows × lanes arrays the perceptrons read and write. -/
abbrev Rows : Shape := ⟨2, ![640000, 128]⟩
/-- A 128 × 128 weight matrix. -/
abbrev Weights : Shape := ⟨2, ![128, 128]⟩
/-- A bias, gain or shift row kept as a 1 × 128 array. -/
abbrev Row : Shape := ⟨2, ![1, 128]⟩

/-- Row `r` of the first perceptron. -/
def row1 (a0 : Rows.Idx → EReal) (a1 : Weights.Idx → EReal) (a2 a3 a4 : Row.Idx → EReal) (a5 : Weights.Idx → EReal)
    (a6 : Row.Idx → EReal) (r : Fin 640000) : Fin 128 → EReal :=
  mlp (fun j => (∑ k : Fin 128, a0 (ix2 r k) * a1 (ix2 k j)) + a2 (ix2 (0 : Fin 1) j))
    (fun j => a3 (ix2 (0 : Fin 1) j)) (fun j => a4 (ix2 (0 : Fin 1) j)) (fun k j => a5 (ix2 k j))
    (fun j => a6 (ix2 (0 : Fin 1) j))

/-- The first perceptron's output array. -/
def array1 (a0 : Rows.Idx → EReal) (a1 : Weights.Idx → EReal) (a2 a3 a4 : Row.Idx → EReal) (a5 : Weights.Idx → EReal)
    (a6 : Row.Idx → EReal) : Rows.Idx → EReal :=
  fun i => row1 a0 a1 a2 a3 a4 a5 a6 (i 0) (i 1)

/-- Row `r` of the second perceptron. -/
def row2 (a0 a1 : Rows.Idx → EReal) (a2 a3 : Weights.Idx → EReal) (a4 a5 a6 : Row.Idx → EReal) (a7 : Weights.Idx → EReal)
    (a8 : Row.Idx → EReal) (r : Fin 640000) : Fin 128 → EReal :=
  mlp (fun j => ((∑ k : Fin 128, a0 (ix2 r k) * a2 (ix2 k j)) + ∑ k : Fin 128, a1 (ix2 r k) * a3 (ix2 k j))
      + a4 (ix2 (0 : Fin 1) j))
    (fun j => a5 (ix2 (0 : Fin 1) j)) (fun j => a6 (ix2 (0 : Fin 1) j)) (fun k j => a7 (ix2 k j))
    (fun j => a8 (ix2 (0 : Fin 1) j))

/-- The second perceptron's output array. -/
def array2 (a0 a1 : Rows.Idx → EReal) (a2 a3 : Weights.Idx → EReal) (a4 a5 a6 : Row.Idx → EReal) (a7 : Weights.Idx → EReal)
    (a8 : Row.Idx → EReal) : Rows.Idx → EReal :=
  fun i => row2 a0 a1 a2 a3 a4 a5 a6 a7 a8 (i 0) (i 1)

end Cert.RowMlp

end
-- ==== Proof.Region0.lean ====
/-
  The first pipeline's output array, from the arrays the pipeline finds.

  The grid has 80 points; point `t` takes rows `8000·t … 8000·t + 7999` of the gathered features (window 0) and
  writes the same rows of the output (window 7); the weights and the bias rows (windows 1–6) are read whole at every
  point. Entry `(p, q)` of the block written at point `t` is the row perceptron of row `8000·t + p`, so the block is
  block `t` of ONE whole-array function, `RowMlp.array1` of the arrays at entry. Row `r` lies in the block of
  point `r / 8000`: the 80 blocks cover the array, and the array after the pipeline is that function.
-/
import proofs.«129298_j49658411876808_2_alg».proof.Proof.Gen.KernelIdeal.Frame
import proofs.«129298_j49658411876808_2_alg».proof.Proof.BlockMlp
import proofs.«129298_j49658411876808_2_alg».proof.Proof.MlpArrays

set_option maxRecDepth 16384

noncomputable section

namespace Cert.KernelIdeal.Region0

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row windows sit at block `t`, the others at block 0. -/
theorem index_maps : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The output array as one function of the arrays at entry. -/
abbrev out (c : Dev nD) : S640000x128.Idx → EReal :=
  RowMlp.array1 (V c main_v11) (V c main_arg1) (V c main_v12) (V c main_v13) (V c main_v14) (V c main_arg5) (V c main_v15)

/-- What point `t` writes back is block `t` of that function. -/
theorem flushed_eq (c : Dev nD) (t : Fin cfg0.N) :
    (dat0 V c).flushed 7 t = ((cfg0.win 7).blk t).view.read (Elt Ideal) (out V c) := by
  show (cfg0.win 7).cut (grid0.coords t) ((dat0 V c).after 7 t) = _
  rw [after0_7]
  unfold out0_7
  rw [View.canon_unit_zero zero_offsets]
  simp only [View.ld_unit_zero (S := S8000x128) zero_offsets, View.ld_unit_zero (S := S128x128) zero_offsets,
    View.ld_unit_zero (S := S1x128) zero_offsets]
  obtain ⟨e00, e01, e70, e71, e10, e11, e20, e21, e30, e31, e40, e41, e50, e51, e60, e61⟩ := index_maps t
  have ht : t.val < 80 := t.isLt
  funext j
  obtain ⟨p, q, rfl⟩ : ∃ (p : Fin 8000) (q : Fin 128), j = ix2 p q := ⟨j 0, j 1, eq_ix2 j⟩
  have hp : p.val < 8000 := p.isLt
  refine (BlockMlp.mlp1_block (iblk0 V c 0 t) (iblk0 V c 1 t) (iblk0 V c 2 t) (iblk0 V c 3 t) (iblk0 V c 4 t)
    (iblk0 V c 5 t) (iblk0 V c 6 t) p q).trans ?_
  have hrow : t.val * 8000 + p.val < 640000 := by omega
  have h7 : ((cfg0.win 7).blk t).view.emb (ix2 p q) = ix2 (⟨t.val * 8000 + p.val, hrow⟩ : Fin 640000) q :=
    funext fun a => Fin.ext (by
      match a with
      | ⟨0, _⟩ => show win0_7.index t (0 : Fin 2) * 8000 + 1 * p.val = t.val * 8000 + p.val; simp only [e70]; try omega
      | ⟨1, _⟩ => show win0_7.index t (1 : Fin 2) * 128 + 1 * q.val = q.val; simp only [e71]; omega)
  have h0 : ∀ (k : Fin 128), iblk0 V c 0 t (ix2 p k) = V c main_v11 (ix2 (⟨t.val * 8000 + p.val, hrow⟩ : Fin 640000) k) := fun k =>
    congrArg (V c main_v11) (funext fun a => Fin.ext (by
      match a with
      | ⟨0, _⟩ => show win0_0.index t (0 : Fin 2) * 8000 + 1 * p.val = t.val * 8000 + p.val; simp only [e00]; try omega
      | ⟨1, _⟩ => show win0_0.index t (1 : Fin 2) * 128 + 1 * k.val = k.val; simp only [e01]; try omega))
  have h1 : ∀ (k : Fin 128) (j : Fin 128), iblk0 V c 1 t (ix2 k j) = V c main_arg1 (ix2 k j) := fun k j =>
    congrArg (V c main_arg1) (funext fun a => Fin.ext (by
      match a with
      | ⟨0, _⟩ => show win0_1.index t (0 : Fin 2) * 128 + 1 * k.val = k.val; simp only [e10]; try omega
      | ⟨1, _⟩ => show win0_1.index t (1 : Fin 2) * 128 + 1 * j.val = j.val; simp only [e11]; try omega))
  have h2 : ∀ (j : Fin 128), iblk0 V c 2 t (ix2 (0 : Fin 1) j) = V c main_v12 (ix2 (0 : Fin 1) j) := fun j =>
    congrArg (V c main_v12) (funext fun a => Fin.ext (by
      match a with
      | ⟨0, _⟩ => show win0_2.index t (0 : Fin 2) * 1 + 1 * 0 = 0; simp only [e20]; try omega
      | ⟨1, _⟩ => show win0_2.index t (1 : Fin 2) * 128 + 1 * j.val = j.val; simp only [e21]; try omega))
  have h3 : ∀ (j : Fin 128), iblk0 V c 3 t (ix2 (0 : Fin 1) j) = V c main_v13 (ix2 (0 : Fin 1) j) := fun j =>
    congrArg (V c main_v13) (funext fun a => Fin.ext (by
      match a with
      | ⟨0, _⟩ => show win0_3.index t (0 : Fin 2) * 1 + 1 * 0 = 0; simp only [e30]; try omega
      | ⟨1, _⟩ => show win0_3.index t (1 : Fin 2) * 128 + 1 * j.val = j.val; simp only [e31]; try omega))
  have h4 : ∀ (j : Fin 128), iblk0 V c 4 t (ix2 (0 : Fin 1) j) = V c main_v14 (ix2 (0 : Fin 1) j) := fun j =>
    congrArg (V c main_v14) (funext fun a => Fin.ext (by
      match a with
      | ⟨0, _⟩ => show win0_4.index t (0 : Fin 2) * 1 + 1 * 0 = 0; simp only [e40]; try omega
      | ⟨1, _⟩ => show win0_4.index t (1 : Fin 2) * 128 + 1 * j.val = j.val; simp only [e41]; try omega))
  have h5 : ∀ (k : Fin 128) (j : Fin 128), iblk0 V c 5 t (ix2 k j) = V c main_arg5 (ix2 k j) := fun k j =>
    congrArg (V c main_arg5) (funext fun a => Fin.ext (by
      match a with
      | ⟨0, _⟩ => show win0_5.index t (0 : Fin 2) * 128 + 1 * k.val = k.val; simp only [e50]; try omega
      | ⟨1, _⟩ => show win0_5.index t (1 : Fin 2) * 128 + 1 * j.val = j.val; simp only [e51]; try omega))
  have h6 : ∀ (j : Fin 128), iblk0 V c 6 t (ix2 (0 : Fin 1) j) = V c main_v15 (ix2 (0 : Fin 1) j) := fun j =>
    congrArg (V c main_v15) (funext fun a => Fin.ext (by
      match a with
      | ⟨0, _⟩ => show win0_6.index t (0 : Fin 2) * 1 + 1 * 0 = 0; simp only [e60]; try omega
      | ⟨1, _⟩ => show win0_6.index t (1 : Fin 2) * 128 + 1 * j.val = j.val; simp only [e61]; try omega))
  show _ = out V c (((cfg0.win 7).blk t).view.emb (ix2 p q))
  rw [h7]
  simp only [h0, h1, h2, h3, h4, h5, h6]
  rfl

/-- An index of the array is in point `t`'s block iff each coordinate is in the block's range on its axis. -/
theorem mem_blk (t : Fin cfg0.N) (i : S640000x128.Idx) :
    i ∈ ((cfg0.win 7).blk t).view.set ↔ ∀ a : Fin 2, win0_7.index t a * S8000x128.size a ≤ (i a).val
      ∧ (i a).val < win0_7.index t a * S8000x128.size a + S8000x128.size a := by
  show i ∈ ((View.whole main_v16).slice (win0_7.rect t)).set ↔ _
  rw [View.set_slice_whole, Rect.mem_set_unit]
  exact Iff.rfl

/-- Row `r` lies in the block of point `r / 8000`: the 80 blocks cover the array. -/
theorem cover (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  have hN : grid0.N = 80 := N_0
  have hlt : (i 0).val / 8000 < cfg0.N := by show (i 0).val / 8000 < grid0.N; rw [hN]; omega
  refine ⟨⟨(i 0).val / 8000, hlt⟩, flush0_7 _, ?_⟩
  rw [mem_blk]
  have e := index_maps ⟨(i 0).val / 8000, hlt⟩
  intro a
  match a with
  | ⟨0, _⟩ =>
    show win0_7.index ⟨(i 0).val / 8000, hlt⟩ (0 : Fin 2) * 8000 ≤ (i 0).val
      ∧ (i 0).val < win0_7.index ⟨(i 0).val / 8000, hlt⟩ (0 : Fin 2) * 8000 + 8000
    rw [e.2.2.1]
    show (i 0).val / 8000 * 8000 ≤ (i 0).val ∧ (i 0).val < (i 0).val / 8000 * 8000 + 8000
    omega
  | ⟨1, _⟩ =>
    show win0_7.index ⟨(i 0).val / 8000, hlt⟩ (1 : Fin 2) * 128 ≤ (i 1).val
      ∧ (i 1).val < win0_7.index ⟨(i 0).val / 8000, hlt⟩ (1 : Fin 2) * 128 + 128
    rw [e.2.2.2.1]
    omega

/-- The array after the pipeline is the whole-array function of the arrays at entry. -/
theorem final (c : Dev nD) : (dat0 V c).arrAt 7 cfg0.N = out V c :=
  (dat0 V c).arrAt_eq_of_cover 7 (out V c) (fun t _ => flushed_eq V c t) cover

end Cert.KernelIdeal.Region0

end
-- ==== Proof.Region1.lean ====
/-
  The second pipeline's output array, from the arrays the pipeline finds.

  The grid has 80 points; point `t` takes rows `8000·t … 8000·t + 7999` of TWO row arrays, the gathered node
  features (window 0) and the gathered hyperedge features (window 1), and writes the same rows of the output
  (window 9); the two 128 × 128 halves of the first layer's weights (windows 2 and 3), the first bias row, the gain
  row and the shift row (windows 4–6), the second layer's weights (window 7) and its bias row (window 8) are read
  whole at every point. Entry `(p, q)` of the block written at point `t` is the row perceptron of the
  pre-activations that row `8000·t + p` of the first input gives with the upper half plus those that the same row of
  the second input gives with the lower half, so the block is block `t` of ONE whole-array function,
  `RowMlp.array2` of the arrays at entry. Row `r` lies in the block of point `r / 8000`: the 80 blocks cover the
  array, and the array after the pipeline is that function.
-/
import proofs.«129298_j49658411876808_2_alg».proof.Proof.Gen.KernelIdeal.Frame
import proofs.«129298_j49658411876808_2_alg».proof.Proof.BlockMlp
import proofs.«129298_j49658411876808_2_alg».proof.Proof.MlpArrays

set_option maxRecDepth 16384

noncomputable section

namespace Cert.KernelIdeal.Region1

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row windows sit at block `t`, the others at block 0. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The output array as one function of the arrays at entry. -/
abbrev out (c : Dev nD) : S640000x128.Idx → EReal :=
  RowMlp.array2 (V c main_v11) (V c main_v36) (V c main_v37) (V c main_v38) (V c main_v39) (V c main_v40) (V c main_v41)
    (V c main_arg11) (V c main_v42)

/-- What point `t` writes back is block `t` of that function. -/
theorem flushed_eq (c : Dev nD) (t : Fin cfg1.N) :
    (dat1 V c).flushed 9 t = ((cfg1.win 9).blk t).view.read (Elt Ideal) (out V c) := by
  show (cfg1.win 9).cut (grid1.coords t) ((dat1 V c).after 9 t) = _
  rw [after1_9]
  unfold out1_9
  rw [View.canon_unit_zero zero_offsets]
  simp only [View.ld_unit_zero (S := S8000x128) zero_offsets, View.ld_unit_zero (S := S128x128) zero_offsets,
    View.ld_unit_zero (S := S1x128) zero_offsets]
  obtain ⟨e00, e01, e10, e11, e90, e91, e20, e21, e30, e31, e40, e41, e50, e51, e60, e61, e70, e71, e80, e81⟩ :=
    index_maps t
  have ht : t.val < 80 := t.isLt
  funext j
  obtain ⟨p, q, rfl⟩ : ∃ (p : Fin 8000) (q : Fin 128), j = ix2 p q := ⟨j 0, j 1, eq_ix2 j⟩
  have hp : p.val < 8000 := p.isLt
  refine (BlockMlp.mlp2_block (iblk1 V c 0 t) (iblk1 V c 1 t) (iblk1 V c 2 t) (iblk1 V c 3 t) (iblk1 V c 4 t)
    (iblk1 V c 5 t) (iblk1 V c 6 t) (iblk1 V c 7 t) (iblk1 V c 8 t) p q).trans ?_
  have hrow : t.val * 8000 + p.val < 640000 := by omega
  have h9 : ((cfg1.win 9).blk t).view.emb (ix2 p q) = ix2 (⟨t.val * 8000 + p.val, hrow⟩ : Fin 640000) q :=
    funext fun a => Fin.ext (by
      match a with
      | ⟨0, _⟩ => show win1_9.index t (0 : Fin 2) * 8000 + 1 * p.val = t.val * 8000 + p.val; simp only [e90]; try omega
      | ⟨1, _⟩ => show win1_9.index t (1 : Fin 2) * 128 + 1 * q.val = q.val; simp only [e91]; omega)
  have h0 : ∀ (k : Fin 128), iblk1 V c 0 t (ix2 p k) = V c main_v11 (ix2 (⟨t.val * 8000 + p.val, hrow⟩ : Fin 640000) k) := fun k =>
    congrArg (V c main_v11) (funext fun a => Fin.ext (by
      match a with
      | ⟨0, _⟩ => show win1_0.index t (0 : Fin 2) * 8000 + 1 * p.val = t.val * 8000 + p.val; simp only [e00]; try omega
      | ⟨1, _⟩ => show win1_0.index t (1 : Fin 2) * 128 + 1 * k.val = k.val; simp only [e01]; try omega))
  have h1 : ∀ (k : Fin 128), iblk1 V c 1 t (ix2 p k) = V c main_v36 (ix2 (⟨t.val * 8000 + p.val, hrow⟩ : Fin 640000) k) := fun k =>
    congrArg (V c main_v36) (funext fun a => Fin.ext (by
      match a with
      | ⟨0, _⟩ => show win1_1.index t (0 : Fin 2) * 8000 + 1 * p.val = t.val * 8000 + p.val; simp only [e10]; try omega
      | ⟨1, _⟩ => show win1_1.index t (1 : Fin 2) * 128 + 1 * k.val = k.val; simp only [e11]; try omega))
  have h2 : ∀ (k : Fin 128) (j : Fin 128), iblk1 V c 2 t (ix2 k j) = V c main_v37 (ix2 k j) := fun k j =>
    congrArg (V c main_v37) (funext fun a => Fin.ext (by
      match a with
      | ⟨0, _⟩ => show win1_2.index t (0 : Fin 2) * 128 + 1 * k.val = k.val; simp only [e20]; try omega
      | ⟨1, _⟩ => show win1_2.index t (1 : Fin 2) * 128 + 1 * j.val = j.val; simp only [e21]; try omega))
  have h3 : ∀ (k : Fin 128) (j : Fin 128), iblk1 V c 3 t (ix2 k j) = V c main_v38 (ix2 k j) := fun k j =>
    congrArg (V c main_v38) (funext fun a => Fin.ext (by
      match a with
      | ⟨0, _⟩ => show win1_3.index t (0 : Fin 2) * 128 + 1 * k.val = k.val; simp only [e30]; try omega
      | ⟨1, _⟩ => show win1_3.index t (1 : Fin 2) * 128 + 1 * j.val = j.val; simp only [e31]; try omega))
  have h4 : ∀ (j : Fin 128), iblk1 V c 4 t (ix2 (0 : Fin 1) j) = V c main_v39 (ix2 (0 : Fin 1) j) := fun j =>
    congrArg (V c main_v39) (funext fun a => Fin.ext (by
      match a with
      | ⟨0, _⟩ => show win1_4.index t (0 : Fin 2) * 1 + 1 * 0 = 0; simp only [e40]; try omega
      | ⟨1, _⟩ => show win1_4.index t (1 : Fin 2) * 128 + 1 * j.val = j.val; simp only [e41]; try omega))
  have h5 : ∀ (j : Fin 128), iblk1 V c 5 t (ix2 (0 : Fin 1) j) = V c main_v40 (ix2 (0 : Fin 1) j) := fun j =>
    congrArg (V c main_v40) (funext fun a => Fin.ext (by
      match a with
      | ⟨0, _⟩ => show win1_5.index t (0 : Fin 2) * 1 + 1 * 0 = 0; simp only [e50]; try omega
      | ⟨1, _⟩ => show win1_5.index t (1 : Fin 2) * 128 + 1 * j.val = j.val; simp only [e51]; try omega))
  have h6 : ∀ (j : Fin 128), iblk1 V c 6 t (ix2 (0 : Fin 1) j) = V c main_v41 (ix2 (0 : Fin 1) j) := fun j =>
    congrArg (V c main_v41) (funext fun a => Fin.ext (by
      match a with
      | ⟨0, _⟩ => show win1_6.index t (0 : Fin 2) * 1 + 1 * 0 = 0; simp only [e60]; try omega
      | ⟨1, _⟩ => show win1_6.index t (1 : Fin 2) * 128 + 1 * j.val = j.val; simp only [e61]; try omega))
  have h7 : ∀ (k : Fin 128) (j : Fin 128), iblk1 V c 7 t (ix2 k j) = V c main_arg11 (ix2 k j) := fun k j =>
    congrArg (V c main_arg11) (funext fun a => Fin.ext (by
      match a with
      | ⟨0, _⟩ => show win1_7.index t (0 : Fin 2) * 128 + 1 * k.val = k.val; simp only [e70]; try omega
      | ⟨1, _⟩ => show win1_7.index t (1 : Fin 2) * 128 + 1 * j.val = j.val; simp only [e71]; try omega))
  have h8 : ∀ (j : Fin 128), iblk1 V c 8 t (ix2 (0 : Fin 1) j) = V c main_v42 (ix2 (0 : Fin 1) j) := fun j =>
    congrArg (V c main_v42) (funext fun a => Fin.ext (by
      match a with
      | ⟨0, _⟩ => show win1_8.index t (0 : Fin 2) * 1 + 1 * 0 = 0; simp only [e80]; try omega
      | ⟨1, _⟩ => show win1_8.index t (1 : Fin 2) * 128 + 1 * j.val = j.val; simp only [e81]; try omega))
  show _ = out V c (((cfg1.win 9).blk t).view.emb (ix2 p q))
  rw [h9]
  simp only [h0, h1, h2, h3, h4, h5, h6, h7, h8]
  rfl

/-- An index of the array is in point `t`'s block iff each coordinate is in the block's range on its axis. -/
theorem mem_blk (t : Fin cfg1.N) (i : S640000x128.Idx) :
    i ∈ ((cfg1.win 9).blk t).view.set ↔ ∀ a : Fin 2, win1_9.index t a * S8000x128.size a ≤ (i a).val
      ∧ (i a).val < win1_9.index t a * S8000x128.size a + S8000x128.size a := by
  show i ∈ ((View.whole main_v43).slice (win1_9.rect t)).set ↔ _
  rw [View.set_slice_whole, Rect.mem_set_unit]
  exact Iff.rfl

/-- Row `r` lies in the block of point `r / 8000`: the 80 blocks cover the array. -/
theorem cover (i : S640000x128.Idx) :
    ∃ t : Fin cfg1.N, (cfg1.win 9).flush t = true ∧ i ∈ ((cfg1.win 9).blk t).view.set := by
  have hi0 : (i 0).val < 640000 := (i 0).isLt
  have hi1 : (i 1).val < 128 := (i 1).isLt
  have hN : grid1.N = 80 := N_1
  have hlt : (i 0).val / 8000 < cfg1.N := by show (i 0).val / 8000 < grid1.N; rw [hN]; omega
  refine ⟨⟨(i 0).val / 8000, hlt⟩, flush1_9 _, ?_⟩
  rw [mem_blk]
  have e := index_maps ⟨(i 0).val / 8000, hlt⟩
  intro a
  match a with
  | ⟨0, _⟩ =>
    show win1_9.index ⟨(i 0).val / 8000, hlt⟩ (0 : Fin 2) * 8000 ≤ (i 0).val
      ∧ (i 0).val < win1_9.index ⟨(i 0).val / 8000, hlt⟩ (0 : Fin 2) * 8000 + 8000
    rw [e.2.2.2.2.1]
    show (i 0).val / 8000 * 8000 ≤ (i 0).val ∧ (i 0).val < (i 0).val / 8000 * 8000 + 8000
    omega
  | ⟨1, _⟩ =>
    show win1_9.index ⟨(i 0).val / 8000, hlt⟩ (1 : Fin 2) * 128 ≤ (i 1).val
      ∧ (i 1).val < win1_9.index ⟨(i 0).val / 8000, hlt⟩ (1 : Fin 2) * 128 + 128
    rw [e.2.2.2.2.2.1]
    omega

/-- The array after the pipeline is the whole-array function of the arrays at entry. -/
theorem final (c : Dev nD) : (dat1 V c).arrAt 9 cfg1.N = out V c :=
  (dat1 V c).arrAt_eq_of_cover 9 (out V c) (fun t _ => flushed_eq V c t) cover

end Cert.KernelIdeal.Region1

end
-- ==== Proof.RefMlp.lean ====
/-
  The reference's two perceptrons, read at an index.

  Each perceptron of the reference is a chain of whole-array operations over 640000 rows of 128 lanes: a product with
  a weight matrix plus a bias (the pre-activation rows); the mean of each row; the mean of the squared deviations from
  it; the reciprocal square root of that variance plus a small constant; the centred row times this scale, times a
  gain, plus a bias; the cut below at zero; and a second product with a weight matrix plus a bias. Every array of the
  chain, at row `r`, depends on row `r` of the pre-activations only, so read at row `r` and lane `c` the last array of
  the chain is the row function `Cert.RowMlp.mlp` of the pre-activation row `r`, at lane `c`.

  The steps, for each perceptron: the pre-activation at `(r, j)` is the sum over `k` of the input at `(r, k)` times the
  weight at `(k, j)`, plus the bias at `j`; the column of means at `(r, 0)` is `mean` of the pre-activation row; the
  column of scales at `(r, 0)` is `scale` of it; the activated array at `(r, j)` is `act` of it at `j`; the result at
  `(r, c)` is `lin` of the activated row at `c`. A row sum starts from the float zero, which is the zero of the extended
  reals. The first perceptron's input is a gathered array of 128 lanes and the second's a joined array of 256 lanes;
  both are kept as they stand.
-/
import proofs.«129298_j49658411876808_2_alg».proof.Proof.Gen.ReferenceIdeal.Read
import proofs.«129298_j49658411876808_2_alg».proof.Proof.RowMlp

noncomputable section

namespace Cert.ReferenceIdeal.RefMlp

open Idealize.ShloMosaic Idealize.ShloMosaic.ValueIdx Cert.ReferenceIdeal Cert.ReferenceIdeal.Read

/-! ## The first perceptron -/

/-- The first pre-activation at row `r`, lane `j`: the input row times column `j` of the weights, plus the bias. -/
theorem pre1_apply (x0 : (⟨S40000x128, .f32⟩ : BufTy).Contents (Elt Ideal)) (x1 : (⟨S128x128, .f32⟩ : BufTy).Contents (Elt Ideal))
    (x2 : (⟨S128, .f32⟩ : BufTy).Contents (Elt Ideal)) (x13 : (⟨S2x640000, .i32⟩ : BufTy).Contents (Elt Ideal))
    (r : Fin 640000) (j : Fin 128) :
    val_main_v14 (F := Ideal) x0 x1 x2 x13 (ix2 r j)
      = (∑ k : Fin 128, val_main_v10 (F := Ideal) x0 x13 (ix2 r k) * x1 (ix2 k j)) + x2 (ix1 j) := by
  rw [val_main_v14_apply, val_main_v11_apply, val_main_v13_apply, val_main_v12_apply]
  have e1 : ∀ k : Fin 128, lidx_main_v11 (ix2 r j) k = ix2 r k := fun k =>
    funext fun a => Fin.ext (by match a with | ⟨0, _⟩ => rfl | ⟨1, _⟩ => rfl)
  have e2 : ∀ k : Fin 128, ridx_main_v11 (ix2 r j) k = ix2 k j := fun k =>
    funext fun a => Fin.ext (by match a with | ⟨0, _⟩ => rfl | ⟨1, _⟩ => rfl)
  have e3 : idx_main_v12 (idx_main_v13 (ix2 r j)) = ix1 j :=
    funext fun a => Fin.ext (by match a with | ⟨0, _⟩ => rfl)
  simp only [e1, e2, e3, Ideal.addf_def]

/-- The first perceptron's column of means at row `r` is the mean of the pre-activation row `r`. -/
theorem mean1_apply (x0 : (⟨S40000x128, .f32⟩ : BufTy).Contents (Elt Ideal)) (x1 : (⟨S128x128, .f32⟩ : BufTy).Contents (Elt Ideal))
    (x2 : (⟨S128, .f32⟩ : BufTy).Contents (Elt Ideal)) (x13 : (⟨S2x640000, .i32⟩ : BufTy).Contents (Elt Ideal))
    (r : Fin 640000) (z : Fin 1) :
    val_main_v18 (F := Ideal) x0 x1 x2 x13 (ix2 r z)
      = Cert.RowMlp.mean (fun j => val_main_v14 (F := Ideal) x0 x1 x2 x13 (ix2 r j)) := by
  unfold Cert.RowMlp.mean
  rw [val_main_v18_apply, val_main_v16_apply, val_main_v15_apply, val_main_v17_apply, val_main_cst_1_apply, val_main_cst_apply]
  have e : ∀ k : Fin 128, idx_main_v15 (idx_main_v16 (ix2 r z)) k = ix2 r k := fun k =>
    funext fun a => Fin.ext (by match a with | ⟨0, _⟩ => rfl | ⟨1, _⟩ => rfl)
  simp only [e, Ideal.hostDivf_def, Ideal.ofBits_def, Ideal.ofBits_zero_f32, zero_add]

/-- The first perceptron's column of scales at row `r` is the scale of the pre-activation row `r`. -/
theorem scale1_apply (x0 : (⟨S40000x128, .f32⟩ : BufTy).Contents (Elt Ideal)) (x1 : (⟨S128x128, .f32⟩ : BufTy).Contents (Elt Ideal))
    (x2 : (⟨S128, .f32⟩ : BufTy).Contents (Elt Ideal)) (x13 : (⟨S2x640000, .i32⟩ : BufTy).Contents (Elt Ideal))
    (r : Fin 640000) (z : Fin 1) :
    val_main_v30 (F := Ideal) x0 x1 x2 x13 (ix2 r z)
      = Cert.RowMlp.scale (fun j => val_main_v14 (F := Ideal) x0 x1 x2 x13 (ix2 r j)) := by
  unfold Cert.RowMlp.scale
  rw [val_main_v30_apply, val_main_v29_apply, val_main_v25_apply, val_main_v23_apply, val_main_v22_apply, val_main_v24_apply,
    val_main_v28_apply, val_main_cst_2_apply, val_main_cst_3_apply, val_main_cst_4_apply]
  have e : ∀ k : Fin 128, idx_main_v22 (idx_main_v23 (ix2 r z)) k = ix2 r k := fun k =>
    funext fun a => Fin.ext (by match a with | ⟨0, _⟩ => rfl | ⟨1, _⟩ => rfl)
  have e' : ∀ k : Fin 128, idx_main_v19 (ix2 r k) = ix2 r (0 : Fin 1) := fun k =>
    funext fun a => Fin.ext (by match a with | ⟨0, _⟩ => rfl | ⟨1, _⟩ => rfl)
  simp only [e, val_main_v21_apply, val_main_v20_apply, val_main_v19_apply, e', mean1_apply, Ideal.hostDivf_def,
    Ideal.hostUnary_rsqrt_def, Ideal.addf_def, Ideal.subf_def, Ideal.mulf_def, Ideal.ofBits_def, Ideal.ofBits_zero_f32, zero_add]

/-- The first perceptron's activated array at row `r`, lane `j`: the normalised pre-activation row `r`, cut below at zero. -/
theorem act1_apply (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x13 : (⟨S2x640000, .i32⟩ : BufTy).Contents (Elt Ideal))
    (r : Fin 640000) (j : Fin 128) :
    val_main_v39 (F := Ideal) x0 x1 x2 x3 x4 x13 (ix2 r j)
      = Cert.RowMlp.act (fun j => val_main_v14 (F := Ideal) x0 x1 x2 x13 (ix2 r j)) (fun j => x3 (ix1 j)) (fun j => x4 (ix1 j)) j := by
  unfold Cert.RowMlp.act
  rw [val_main_v39_apply, val_main_v38_apply, val_main_v35_apply, val_main_v32_apply, val_main_v27_apply, val_main_v26_apply,
    val_main_v31_apply, val_main_v34_apply, val_main_v33_apply, val_main_v37_apply, val_main_v36_apply,
    val_main_call0_v0_apply, val_main_call0_cst_apply]
  have e1 : idx_main_v26 (ix2 r j) = ix2 r (0 : Fin 1) :=
    funext fun a => Fin.ext (by match a with | ⟨0, _⟩ => rfl | ⟨1, _⟩ => rfl)
  have e2 : idx_main_v31 (ix2 r j) = ix2 r (0 : Fin 1) :=
    funext fun a => Fin.ext (by match a with | ⟨0, _⟩ => rfl | ⟨1, _⟩ => rfl)
  have e3 : idx_main_v33 (idx_main_v34 (ix2 r j)) = ix1 j :=
    funext fun a => Fin.ext (by match a with | ⟨0, _⟩ => rfl)
  have e4 : idx_main_v36 (idx_main_v37 (ix2 r j)) = ix1 j :=
    funext fun a => Fin.ext (by match a with | ⟨0, _⟩ => rfl)
  rw [e1, e2, e3, e4, mean1_apply, scale1_apply]
  simp only [Ideal.maximumf_def, Ideal.addf_def, Ideal.subf_def, Ideal.mulf_def, Ideal.ofBits_def]

/-- The first perceptron's result at row `r`, lane `c` is the row function of the pre-activation row `r`. -/
theorem mlp1_apply (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x13 : (⟨S2x640000, .i32⟩ : BufTy).Contents (Elt Ideal))
    (r : Fin 640000) (c : Fin 128) :
    val_main_v43 (F := Ideal) x0 x1 x2 x3 x4 x5 x6 x13 (ix2 r c)
      = Cert.RowMlp.mlp (fun j => (∑ k : Fin 128, val_main_v10 (F := Ideal) x0 x13 (ix2 r k) * x1 (ix2 k j)) + x2 (ix1 j))
          (fun j => x3 (ix1 j)) (fun j => x4 (ix1 j)) (fun k j => x5 (ix2 k j)) (fun j => x6 (ix1 j)) c := by
  unfold Cert.RowMlp.mlp Cert.RowMlp.lin
  rw [val_main_v43_apply, val_main_v40_apply, val_main_v42_apply, val_main_v41_apply]
  have e1 : ∀ k : Fin 128, lidx_main_v40 (ix2 r c) k = ix2 r k := fun k =>
    funext fun a => Fin.ext (by match a with | ⟨0, _⟩ => rfl | ⟨1, _⟩ => rfl)
  have e2 : ∀ k : Fin 128, ridx_main_v40 (ix2 r c) k = ix2 k c := fun k =>
    funext fun a => Fin.ext (by match a with | ⟨0, _⟩ => rfl | ⟨1, _⟩ => rfl)
  have e3 : idx_main_v41 (idx_main_v42 (ix2 r c)) = ix1 c :=
    funext fun a => Fin.ext (by match a with | ⟨0, _⟩ => rfl)
  simp only [e1, e2, e3, act1_apply, pre1_apply, Ideal.addf_def]

/-! ## The second perceptron -/

/-- The second pre-activation at row `r`, lane `j`: the joined input row times column `j` of the weights, plus the bias. -/
theorem pre2_apply (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x13 : (⟨S2x640000, .i32⟩ : BufTy).Contents (Elt Ideal))
    (r : Fin 640000) (j : Fin 128) :
    val_main_v74 (F := Ideal) x0 x1 x2 x3 x4 x5 x6 x7 x8 x13 (ix2 r j)
      = (∑ k : Fin 256, val_main_v70 (F := Ideal) x0 x1 x2 x3 x4 x5 x6 x13 (ix2 r k) * x7 (ix2 k j)) + x8 (ix1 j) := by
  rw [val_main_v74_apply, val_main_v71_apply, val_main_v73_apply, val_main_v72_apply]
  have e1 : ∀ k : Fin 256, lidx_main_v71 (ix2 r j) k = ix2 r k := fun k =>
    funext fun a => Fin.ext (by match a with | ⟨0, _⟩ => rfl | ⟨1, _⟩ => rfl)
  have e2 : ∀ k : Fin 256, ridx_main_v71 (ix2 r j) k = ix2 k j := fun k =>
    funext fun a => Fin.ext (by match a with | ⟨0, _⟩ => rfl | ⟨1, _⟩ => rfl)
  have e3 : idx_main_v72 (idx_main_v73 (ix2 r j)) = ix1 j :=
    funext fun a => Fin.ext (by match a with | ⟨0, _⟩ => rfl)
  simp only [e1, e2, e3, Ideal.addf_def]

/-- The second perceptron's column of means at row `r` is the mean of the pre-activation row `r`. -/
theorem mean2_apply (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x13 : (⟨S2x640000, .i32⟩ : BufTy).Contents (Elt Ideal))
    (r : Fin 640000) (z : Fin 1) :
    val_main_v78 (F := Ideal) x0 x1 x2 x3 x4 x5 x6 x7 x8 x13 (ix2 r z)
      = Cert.RowMlp.mean (fun j => val_main_v74 (F := Ideal) x0 x1 x2 x3 x4 x5 x6 x7 x8 x13 (ix2 r j)) := by
  unfold Cert.RowMlp.mean
  rw [val_main_v78_apply, val_main_v76_apply, val_main_v75_apply, val_main_v77_apply, val_main_cst_14_apply, val_main_cst_13_apply]
  have e : ∀ k : Fin 128, idx_main_v75 (idx_main_v76 (ix2 r z)) k = ix2 r k := fun k =>
    funext fun a => Fin.ext (by match a with | ⟨0, _⟩ => rfl | ⟨1, _⟩ => rfl)
  simp only [e, Ideal.hostDivf_def, Ideal.ofBits_def, Ideal.ofBits_zero_f32, zero_add]

/-- The second perceptron's column of scales at row `r` is the scale of the pre-activation row `r`. -/
theorem scale2_apply (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 : (⟨S128, .f32⟩ : BufTy).Contents (Elt Ideal)) (x13 : (⟨S2x640000, .i32⟩ : BufTy).Contents (Elt Ideal))
    (r : Fin 640000) (z : Fin 1) :
    val_main_v90 (F := Ideal) x0 x1 x2 x3 x4 x5 x6 x7 x8 x13 (ix2 r z)
      = Cert.RowMlp.scale (fun j => val_main_v74 (F := Ideal) x0 x1 x2 x3 x4 x5 x6 x7 x8 x13 (ix2 r j)) := by
  unfold Cert.RowMlp.scale
  rw [val_main_v90_apply, val_main_v89_apply, val_main_v85_apply, val_main_v83_apply, val_main_v82_apply, val_main_v84_apply,
    val_main_v88_apply, val_main_cst_15_apply, val_main_cst_16_apply, val_main_cst_17_apply]
  have e : ∀ k : Fin 128, idx_main_v82 (idx_main_v83 (ix2 r z)) k = ix2 r k := fun k =>
    funext fun a => Fin.ext (by match a with | ⟨0, _⟩ => rfl | ⟨1, _⟩ => rfl)
  have e' : ∀ k : Fin 128, idx_main_v79 (ix2 r k) = ix2 r (0 : Fin 1) := fun k =>
    funext fun a => Fin.ext (by match a with | ⟨0, _⟩ => rfl | ⟨1, _⟩ => rfl)
  simp only [e, val_main_v81_apply, val_main_v80_apply, val_main_v79_apply, e', mean2_apply, Ideal.hostDivf_def,
    Ideal.hostUnary_rsqrt_def, Ideal.addf_def, Ideal.subf_def, Ideal.mulf_def, Ideal.ofBits_def, Ideal.ofBits_zero_f32, zero_add]

/-- The second perceptron's activated array at row `r`, lane `j`: the normalised pre-activation row `r`, cut below at zero. -/
theorem act2_apply (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 x9 x10 : (⟨S128, .f32⟩ : BufTy).Contents (Elt Ideal)) (x13 : (⟨S2x640000, .i32⟩ : BufTy).Contents (Elt Ideal))
    (r : Fin 640000) (j : Fin 128) :
    val_main_v99 (F := Ideal) x0 x1 x2 x3 x4 x5 x6 x7 x8 x9 x10 x13 (ix2 r j)
      = Cert.RowMlp.act (fun j => val_main_v74 (F := Ideal) x0 x1 x2 x3 x4 x5 x6 x7 x8 x13 (ix2 r j)) (fun j => x9 (ix1 j)) (fun j => x10 (ix1 j)) j := by
  unfold Cert.RowMlp.act
  rw [val_main_v99_apply, val_main_v98_apply, val_main_v95_apply, val_main_v92_apply, val_main_v87_apply, val_main_v86_apply,
    val_main_v91_apply, val_main_v94_apply, val_main_v93_apply, val_main_v97_apply, val_main_v96_apply,
    val_main_call1_v0_apply, val_main_call1_cst_apply]
  have e1 : idx_main_v86 (ix2 r j) = ix2 r (0 : Fin 1) :=
    funext fun a => Fin.ext (by match a with | ⟨0, _⟩ => rfl | ⟨1, _⟩ => rfl)
  have e2 : idx_main_v91 (ix2 r j) = ix2 r (0 : Fin 1) :=
    funext fun a => Fin.ext (by match a with | ⟨0, _⟩ => rfl | ⟨1, _⟩ => rfl)
  have e3 : idx_main_v93 (idx_main_v94 (ix2 r j)) = ix1 j :=
    funext fun a => Fin.ext (by match a with | ⟨0, _⟩ => rfl)
  have e4 : idx_main_v96 (idx_main_v97 (ix2 r j)) = ix1 j :=
    funext fun a => Fin.ext (by match a with | ⟨0, _⟩ => rfl)
  rw [e1, e2, e3, e4, mean2_apply, scale2_apply]
  simp only [Ideal.maximumf_def, Ideal.addf_def, Ideal.subf_def, Ideal.mulf_def, Ideal.ofBits_def]

/-- The second perceptron's result at row `r`, lane `c` is the row function of the pre-activation row `r`. -/
theorem mlp2_apply (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 x9 x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S2x640000, .i32⟩ : BufTy).Contents (Elt Ideal))
    (r : Fin 640000) (c : Fin 128) :
    val_main_v103 (F := Ideal) x0 x1 x2 x3 x4 x5 x6 x7 x8 x9 x10 x11 x12 x13 (ix2 r c)
      = Cert.RowMlp.mlp (fun j => (∑ k : Fin 256, val_main_v70 (F := Ideal) x0 x1 x2 x3 x4 x5 x6 x13 (ix2 r k) * x7 (ix2 k j)) + x8 (ix1 j))
          (fun j => x9 (ix1 j)) (fun j => x10 (ix1 j)) (fun k j => x11 (ix2 k j)) (fun j => x12 (ix1 j)) c := by
  unfold Cert.RowMlp.mlp Cert.RowMlp.lin
  rw [val_main_v103_apply, val_main_v100_apply, val_main_v102_apply, val_main_v101_apply]
  have e1 : ∀ k : Fin 128, lidx_main_v100 (ix2 r c) k = ix2 r k := fun k =>
    funext fun a => Fin.ext (by match a with | ⟨0, _⟩ => rfl | ⟨1, _⟩ => rfl)
  have e2 : ∀ k : Fin 128, ridx_main_v100 (ix2 r c) k = ix2 k c := fun k =>
    funext fun a => Fin.ext (by match a with | ⟨0, _⟩ => rfl | ⟨1, _⟩ => rfl)
  have e3 : idx_main_v101 (idx_main_v102 (ix2 r c)) = ix1 c :=
    funext fun a => Fin.ext (by match a with | ⟨0, _⟩ => rfl)
  simp only [e1, e2, e3, act2_apply, pre2_apply, Ideal.addf_def]

end Cert.ReferenceIdeal.RefMlp

end
-- ==== Proof.RefArrays.lean ====
/-
  The reference's two perceptrons as whole arrays.

  The row functions of the two perceptrons are stated over arrays in one spelling: each bias, gain or shift vector of
  128 lanes is a 1 × 128 array, and the second perceptron's first layer is two products, one per input, each with its
  own 128 × 128 weight matrix. The reference holds the same data in another spelling: the vectors as they are, and the
  second perceptron's first layer as ONE product of the two inputs laid side by side (256 lanes) with a 256 × 128
  matrix. Here the two spellings are joined.

  A vector of 128 lanes seen as a 1 × 128 array reads, at `(0, j)`, the vector at `j`. The two inputs laid side by side
  read, at lane `k` of the first 128, the first input at `k`, and at lane `128 + k`, the second input at `k`; the upper
  half of the 256 × 128 matrix reads, at `(k, j)`, the matrix at `(k, j)`, and the lower half the matrix at
  `(128 + k, j)`. A sum over 256 lanes is the sum over the first 128 plus the sum over the last 128, so the one product
  with the joined input is the sum of the two products with the halves. With these, each perceptron's array function of
  the first spelling, at row `r` and lane `c`, is the reference's array at `(r, c)`.
-/
import proofs.«129298_j49658411876808_2_alg».proof.Proof.RefMlp
import proofs.«129298_j49658411876808_2_alg».proof.Proof.MlpArrays
import Idealize.ShloMosaic.Lib.ValueLayout
import Idealize.ShloMosaic.Lib.Pipeline.Value
import Idealize.ShloMosaic.Lib.ValueIdx

noncomputable section

namespace Cert.ReferenceIdeal.RefArrays

open Idealize.ShloMosaic Idealize.ShloMosaic.ValueIdx Cert.ReferenceIdeal Cert.ReferenceIdeal.Read Cert.ReferenceIdeal.RefMlp

/-! ## The first perceptron -/

/-- The first perceptron's array function of the gathered input, the weights and the 1 × 128 spellings of the vectors is
    the reference's first perceptron. -/
theorem array1_eq (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x13 : (⟨S2x640000, .i32⟩ : BufTy).Contents (Elt Ideal))
    (h : (⟨1, ![128]⟩ : Shape).ShapeCasts ⟨2, ![1, 128]⟩) :
    Cert.RowMlp.array1 (val_main_v10 (F := Ideal) x0 x13) x1 (shapeCast ⟨2, ![1, 128]⟩ x2 h) (shapeCast ⟨2, ![1, 128]⟩ x3 h)
        (shapeCast ⟨2, ![1, 128]⟩ x4 h) x5 (shapeCast ⟨2, ![1, 128]⟩ x6 h)
      = val_main_v43 (F := Ideal) x0 x1 x2 x3 x4 x5 x6 x13 := by
  funext i
  obtain ⟨r, c, rfl⟩ : ∃ (r : Fin 640000) (c : Fin 128), i = ix2 r c := ⟨i 0, i 1, eq_ix2 i⟩
  rw [mlp1_apply]
  unfold Cert.RowMlp.array1 Cert.RowMlp.row1
  simp only [shapeCast_a_1a_apply]

/-! ## The joined input and the halves of the matrix -/

/-- The two inputs laid side by side read, at a lane of the first 128, the first input at that lane. -/
theorem joined_left (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x13 : (⟨S2x640000, .i32⟩ : BufTy).Contents (Elt Ideal))
    (r : Fin 640000) (k : Fin 128) :
    val_main_v70 (F := Ideal) x0 x1 x2 x3 x4 x5 x6 x13 (ix2 r (Fin.castAdd 128 k))
      = val_main_v69 (F := Ideal) x0 x13 (ix2 r k) := by
  unfold val_main_v70
  exact concatenate_pair_apply_left (t := S640000x256) (s₁ := S640000x128) (s₂ := S640000x128) 1 _ _ _ _ rfl (ix2 r k)
    (fun b => by
      match b with
      | ⟨0, _⟩ => rfl
      | ⟨1, _⟩ => rfl)

/-- The two inputs laid side by side read, at lane `128 + k`, the second input at lane `k`. -/
theorem joined_right (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x13 : (⟨S2x640000, .i32⟩ : BufTy).Contents (Elt Ideal))
    (r : Fin 640000) (k : Fin 128) :
    val_main_v70 (F := Ideal) x0 x1 x2 x3 x4 x5 x6 x13 (ix2 r (Fin.natAdd 128 k))
      = val_main_v62 (F := Ideal) x0 x1 x2 x3 x4 x5 x6 x13 (ix2 r k) := by
  unfold val_main_v70
  exact concatenate_pair_apply_right (t := S640000x256) (s₁ := S640000x128) (s₂ := S640000x128) 1 _ _ _ _ rfl rfl (ix2 r k)
    (fun b hb => by
      match b with
      | ⟨0, _⟩ => rfl
      | ⟨1, _⟩ => exact absurd rfl hb)
    (by show k.val + 128 = 128 + k.val; omega)

/-- The upper half of the 256 × 128 matrix at `(k, j)` is the matrix at `(k, j)`. -/
theorem upper_apply (x7 : (⟨S256x128, .f32⟩ : BufTy).Contents (Elt Ideal))
    (hs0 : (⟨2, ![256, 128]⟩ : Shape).Slices ![0, 0] ⟨2, ![128, 128]⟩) (k j : Fin 128) :
    extractStridedSlice ⟨2, ![128, 128]⟩ ![0, 0] x7 hs0 (ix2 k j) = x7 (ix2 (Fin.castAdd 128 k) j) :=
  slice2_axis0_apply 0 x7 hs0 k j (Fin.castAdd 128 k) (by show k.val = 0 + k.val; omega)

/-- The lower half of the 256 × 128 matrix at `(k, j)` is the matrix at `(128 + k, j)`. -/
theorem lower_apply (x7 : (⟨S256x128, .f32⟩ : BufTy).Contents (Elt Ideal))
    (hs1 : (⟨2, ![256, 128]⟩ : Shape).Slices ![128, 0] ⟨2, ![128, 128]⟩) (k j : Fin 128) :
    extractStridedSlice ⟨2, ![128, 128]⟩ ![128, 0] x7 hs1 (ix2 k j) = x7 (ix2 (Fin.natAdd 128 k) j) :=
  slice2_axis0_apply 128 x7 hs1 k j (Fin.natAdd 128 k) (by show 128 + k.val = 128 + k.val; rfl)

/-- Row `r` of the joined input times column `j` of the 256 × 128 matrix is row `r` of the first input times column `j`
    of the upper half plus row `r` of the second input times column `j` of the lower half. -/
theorem joined_product (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x13 : (⟨S2x640000, .i32⟩ : BufTy).Contents (Elt Ideal))
    (hs0 : (⟨2, ![256, 128]⟩ : Shape).Slices ![0, 0] ⟨2, ![128, 128]⟩)
    (hs1 : (⟨2, ![256, 128]⟩ : Shape).Slices ![128, 0] ⟨2, ![128, 128]⟩) (r : Fin 640000) (j : Fin 128) :
    (∑ k : Fin 256, val_main_v70 (F := Ideal) x0 x1 x2 x3 x4 x5 x6 x13 (ix2 r k) * x7 (ix2 k j))
      = (∑ k : Fin 128, val_main_v69 (F := Ideal) x0 x13 (ix2 r k)
            * extractStridedSlice ⟨2, ![128, 128]⟩ ![0, 0] x7 hs0 (ix2 k j))
        + ∑ k : Fin 128, val_main_v62 (F := Ideal) x0 x1 x2 x3 x4 x5 x6 x13 (ix2 r k)
            * extractStridedSlice ⟨2, ![128, 128]⟩ ![128, 0] x7 hs1 (ix2 k j) := by
  rw [Cert.RowMlp.sum_halves]
  refine congrArg₂ (· + ·) (Finset.sum_congr rfl fun k _ => ?_) (Finset.sum_congr rfl fun k _ => ?_)
  · exact congrArg₂ (· * ·) (joined_left x0 x1 x2 x3 x4 x5 x6 x13 r k) (upper_apply x7 hs0 k j).symm
  · exact congrArg₂ (· * ·) (joined_right x0 x1 x2 x3 x4 x5 x6 x13 r k) (lower_apply x7 hs1 k j).symm

/-! ## The second perceptron -/

/-- The second perceptron's array function of the two inputs, the two halves of the first-layer matrix and the 1 × 128
    spellings of the vectors is the reference's second perceptron. -/
theorem array2_eq (x0 : (⟨S40000x128, .f32⟩ : BufTy).Contents (Elt Ideal)) (x1 : (⟨S128x128, .f32⟩ : BufTy).Contents (Elt Ideal))
    (x2 x3 x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S256x128, .f32⟩ : BufTy).Contents (Elt Ideal))
    (x8 x9 x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S2x640000, .i32⟩ : BufTy).Contents (Elt Ideal))
    (h : (⟨1, ![128]⟩ : Shape).ShapeCasts ⟨2, ![1, 128]⟩)
    (hs0 : (⟨2, ![256, 128]⟩ : Shape).Slices ![0, 0] ⟨2, ![128, 128]⟩)
    (hs1 : (⟨2, ![256, 128]⟩ : Shape).Slices ![128, 0] ⟨2, ![128, 128]⟩) :
    Cert.RowMlp.array2 (val_main_v69 (F := Ideal) x0 x13) (val_main_v62 (F := Ideal) x0 x1 x2 x3 x4 x5 x6 x13)
        (extractStridedSlice ⟨2, ![128, 128]⟩ ![0, 0] x7 hs0) (extractStridedSlice ⟨2, ![128, 128]⟩ ![128, 0] x7 hs1)
        (shapeCast ⟨2, ![1, 128]⟩ x8 h) (shapeCast ⟨2, ![1, 128]⟩ x9 h) (shapeCast ⟨2, ![1, 128]⟩ x10 h) x11
        (shapeCast ⟨2, ![1, 128]⟩ x12 h)
      = val_main_v103 (F := Ideal) x0 x1 x2 x3 x4 x5 x6 x7 x8 x9 x10 x11 x12 x13 := by
  funext i
  obtain ⟨r, c, rfl⟩ : ∃ (r : Fin 640000) (c : Fin 128), i = ix2 r c := ⟨i 0, i 1, eq_ix2 i⟩
  rw [mlp2_apply]
  unfold Cert.RowMlp.array2 Cert.RowMlp.row2
  simp only [shapeCast_a_1a_apply, joined_product x0 x1 x2 x3 x4 x5 x6 x7 x13 hs0 hs1]

end Cert.ReferenceIdeal.RefArrays

end
-- ==== Proof.KernelValue.lean ====
/-
  The idealized kernel's result, read back through its five stretches, is the reference's result.

  From the launch memory: the first stretch of host operations leaves the node row and the hyperedge row of the
  incidence list, the gathered node features, and the first perceptron's vectors as rows; the first pipeline leaves
  the first perceptron of the gathered features in its output array and every other buffer as it was; the second
  stretch scatter-means those rows onto the hyperedges, gathers them back, halves the 256-row weight matrix and
  lays out the second perceptron's vectors; the second pipeline leaves the second perceptron — of the two gathered
  arrays, with the two halves of the weights — in its output array; the last stretch scatter-means those rows onto the
  nodes and mixes with the node features. At each boundary the buffers the next step reads hold the reference's
  stages of the same data; the two perceptrons are the reference's by the whole-array forms of the row perceptron
  (a product with the concatenation of two arrays is the sum of the two products with the halves of the weights).
-/
import proofs.«129298_j49658411876808_2_alg».proof.Proof.Gen.KernelIdeal.Frame
import proofs.«129298_j49658411876808_2_alg».proof.Proof.Stretches
import proofs.«129298_j49658411876808_2_alg».proof.Proof.Region0
import proofs.«129298_j49658411876808_2_alg».proof.Proof.Region1
import proofs.«129298_j49658411876808_2_alg».proof.Proof.RefArrays

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first pipeline's entry -/

theorem w1_v1 : W1 m ρ c (Proc.devRef .tc main_v1) = Cert.ReferenceIdeal.Read.val_main_v1 (F := Ideal) (m ((c : Thread nD τ).loc main_arg13)) := Stretches.s0_v1 (W0 m ρ c)
theorem w1_v3 : W1 m ρ c (Proc.devRef .tc main_v3) = Cert.ReferenceIdeal.Read.val_main_v3 (F := Ideal) (m ((c : Thread nD τ).loc main_arg13)) := Stretches.s0_v3 (W0 m ρ c)
theorem w1_v11 : W1 m ρ c (Proc.devRef .tc main_v11) = Cert.ReferenceIdeal.Read.val_main_v10 (F := Ideal) (m ((c : Thread nD τ).loc main_arg0)) (m ((c : Thread nD τ).loc main_arg13)) := Stretches.s0_v11 (W0 m ρ c)
theorem w1_v12 : W1 m ρ c (Proc.devRef .tc main_v12) = shapeCast S1x128 (m ((c : Thread nD τ).loc main_arg2)) shapeCasts_S128_S1x128 := Stretches.s0_v12 (W0 m ρ c)
theorem w1_v13 : W1 m ρ c (Proc.devRef .tc main_v13) = shapeCast S1x128 (m ((c : Thread nD τ).loc main_arg3)) shapeCasts_S128_S1x128 := Stretches.s0_v13 (W0 m ρ c)
theorem w1_v14 : W1 m ρ c (Proc.devRef .tc main_v14) = shapeCast S1x128 (m ((c : Thread nD τ).loc main_arg4)) shapeCasts_S128_S1x128 := Stretches.s0_v14 (W0 m ρ c)
theorem w1_v15 : W1 m ρ c (Proc.devRef .tc main_v15) = shapeCast S1x128 (m ((c : Thread nD τ).loc main_arg6)) shapeCasts_S128_S1x128 := Stretches.s0_v15 (W0 m ρ c)
theorem w1_arg0 : W1 m ρ c (Proc.devRef .tc main_arg0) = (m ((c : Thread nD τ).loc main_arg0)) := Stretches.s0_keep_arg0 (W0 m ρ c)
theorem w1_arg1 : W1 m ρ c (Proc.devRef .tc main_arg1) = (m ((c : Thread nD τ).loc main_arg1)) := Stretches.s0_keep_arg1 (W0 m ρ c)
theorem w1_arg5 : W1 m ρ c (Proc.devRef .tc main_arg5) = (m ((c : Thread nD τ).loc main_arg5)) := Stretches.s0_keep_arg5 (W0 m ρ c)
theorem w1_arg7 : W1 m ρ c (Proc.devRef .tc main_arg7) = (m ((c : Thread nD τ).loc main_arg7)) := Stretches.s0_keep_arg7 (W0 m ρ c)
theorem w1_arg8 : W1 m ρ c (Proc.devRef .tc main_arg8) = (m ((c : Thread nD τ).loc main_arg8)) := Stretches.s0_keep_arg8 (W0 m ρ c)
theorem w1_arg9 : W1 m ρ c (Proc.devRef .tc main_arg9) = (m ((c : Thread nD τ).loc main_arg9)) := Stretches.s0_keep_arg9 (W0 m ρ c)
theorem w1_arg10 : W1 m ρ c (Proc.devRef .tc main_arg10) = (m ((c : Thread nD τ).loc main_arg10)) := Stretches.s0_keep_arg10 (W0 m ρ c)
theorem w1_arg11 : W1 m ρ c (Proc.devRef .tc main_arg11) = (m ((c : Thread nD τ).loc main_arg11)) := Stretches.s0_keep_arg11 (W0 m ρ c)
theorem w1_arg12 : W1 m ρ c (Proc.devRef .tc main_arg12) = (m ((c : Thread nD τ).loc main_arg12)) := Stretches.s0_keep_arg12 (W0 m ρ c)

/-! ## At the first pipeline's exit -/

theorem w2_v1 : W2 m ρ c (Proc.devRef .tc main_v1) = Cert.ReferenceIdeal.Read.val_main_v1 (F := Ideal) (m ((c : Thread nD τ).loc main_arg13)) :=
  (W2_of_ne m ρ c main_v1 (by decide)).trans (w1_v1 m ρ c)
theorem w2_v3 : W2 m ρ c (Proc.devRef .tc main_v3) = Cert.ReferenceIdeal.Read.val_main_v3 (F := Ideal) (m ((c : Thread nD τ).loc main_arg13)) :=
  (W2_of_ne m ρ c main_v3 (by decide)).trans (w1_v3 m ρ c)
theorem w2_arg0 : W2 m ρ c (Proc.devRef .tc main_arg0) = (m ((c : Thread nD τ).loc main_arg0)) :=
  (W2_of_ne m ρ c main_arg0 (by decide)).trans (w1_arg0 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)
theorem w2_arg11 : W2 m ρ c (Proc.devRef .tc main_arg11) = (m ((c : Thread nD τ).loc main_arg11)) :=
  (W2_of_ne m ρ c main_arg11 (by decide)).trans (w1_arg11 m ρ c)
theorem w2_arg12 : W2 m ρ c (Proc.devRef .tc main_arg12) = (m ((c : Thread nD τ).loc main_arg12)) :=
  (W2_of_ne m ρ c main_arg12 (by decide)).trans (w1_arg12 m ρ c)

/-- The gathered node features pass through the first pipeline unchanged: it only reads them. -/
theorem w2_v11 : W2 m ρ c (Proc.devRef .tc main_v11) = Cert.ReferenceIdeal.Read.val_main_v10 (F := Ideal) (m ((c : Thread nD τ).loc main_arg0)) (m ((c : Thread nD τ).loc main_arg13)) :=
  ((W2_arr m ρ c 0).trans (((dat0 (V1 m ρ) c).arrAt_in 0 rfl _).trans (A_eq0 (V1 m ρ) c 0))).trans (w1_v11 m ρ c)

/-- The first pipeline's output is the reference's first perceptron. -/
theorem w2_v16 : W2 m ρ c (Proc.devRef .tc main_v16) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) := by
  refine (W2_arr m ρ c 7).trans ((Region0.final (V1 m ρ) c).trans ?_)
  show RowMlp.array1 (W1 m ρ c (Proc.devRef .tc main_v11)) (W1 m ρ c (Proc.devRef .tc main_arg1)) (W1 m ρ c (Proc.devRef .tc main_v12)) (W1 m ρ c (Proc.devRef .tc main_v13))
    (W1 m ρ c (Proc.devRef .tc main_v14)) (W1 m ρ c (Proc.devRef .tc main_arg5)) (W1 m ρ c (Proc.devRef .tc main_v15)) = _
  rw [w1_v11 m ρ c, w1_arg1 m ρ c, w1_v12 m ρ c, w1_v13 m ρ c, w1_v14 m ρ c, w1_arg5 m ρ c, w1_v15 m ρ c]
  exact Cert.ReferenceIdeal.RefArrays.array1_eq _ _ _ _ _ _ _ _ shapeCasts_S128_S1x128

/-! ## At the second pipeline's entry -/

theorem w3_v36 : W3 m ρ c (Proc.devRef .tc main_v36) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) :=
  Stretches.s1_v36 (W2 m ρ c) _ _ _ _ _ _ _ _ (w2_v16 m ρ c) (w2_v3 m ρ c)
theorem w3_v11 : W3 m ρ c (Proc.devRef .tc main_v11) = Cert.ReferenceIdeal.Read.val_main_v69 (F := Ideal) (m ((c : Thread nD τ).loc main_arg0)) (m ((c : Thread nD τ).loc main_arg13)) :=
  (Stretches.s1_keep_v11 (W2 m ρ c)).trans ((w2_v11 m ρ c).trans rfl)
theorem w3_v37 : W3 m ρ c (Proc.devRef .tc main_v37) = extractStridedSlice S128x128 ![0, 0] (m ((c : Thread nD τ).loc main_arg7)) slices_S256x128_S128x128_0_0 :=
  (Stretches.s1_v37 (W2 m ρ c)).trans (by rw [w2_arg7 m ρ c])
theorem w3_v38 : W3 m ρ c (Proc.devRef .tc main_v38) = extractStridedSlice S128x128 ![128, 0] (m ((c : Thread nD τ).loc main_arg7)) slices_S256x128_S128x128_128_0 :=
  (Stretches.s1_v38 (W2 m ρ c)).trans (by rw [w2_arg7 m ρ c])
theorem w3_v39 : W3 m ρ c (Proc.devRef .tc main_v39) = shapeCast S1x128 (m ((c : Thread nD τ).loc main_arg8)) shapeCasts_S128_S1x128 := (Stretches.s1_v39 (W2 m ρ c)).trans (by rw [w2_arg8 m ρ c])
theorem w3_v40 : W3 m ρ c (Proc.devRef .tc main_v40) = shapeCast S1x128 (m ((c : Thread nD τ).loc main_arg9)) shapeCasts_S128_S1x128 := (Stretches.s1_v40 (W2 m ρ c)).trans (by rw [w2_arg9 m ρ c])
theorem w3_v41 : W3 m ρ c (Proc.devRef .tc main_v41) = shapeCast S1x128 (m ((c : Thread nD τ).loc main_arg10)) shapeCasts_S128_S1x128 := (Stretches.s1_v41 (W2 m ρ c)).trans (by rw [w2_arg10 m ρ c])
theorem w3_v42 : W3 m ρ c (Proc.devRef .tc main_v42) = shapeCast S1x128 (m ((c : Thread nD τ).loc main_arg12)) shapeCasts_S128_S1x128 := (Stretches.s1_v42 (W2 m ρ c)).trans (by rw [w2_arg12 m ρ c])
theorem w3_arg11 : W3 m ρ c (Proc.devRef .tc main_arg11) = (m ((c : Thread nD τ).loc main_arg11)) := (Stretches.s1_keep_arg11 (W2 m ρ c)).trans (w2_arg11 m ρ c)
theorem w3_v1 : W3 m ρ c (Proc.devRef .tc main_v1) = Cert.ReferenceIdeal.Read.val_main_v1 (F := Ideal) (m ((c : Thread nD τ).loc main_arg13)) :=
  (Stretches.s1_keep_v1 (W2 m ρ c)).trans (w2_v1 m ρ c)
theorem w3_arg0 : W3 m ρ c (Proc.devRef .tc main_arg0) = (m ((c : Thread nD τ).loc main_arg0)) := (Stretches.s1_keep_arg0 (W2 m ρ c)).trans (w2_arg0 m ρ c)

/-! ## At the second pipeline's exit -/

/-- The second pipeline's output is the reference's second perceptron. -/
theorem w4_v43 : W4 m ρ c (Proc.devRef .tc main_v43) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 9).trans ((Region1.final (V3 m ρ) c).trans ?_)
  show RowMlp.array2 (W3 m ρ c (Proc.devRef .tc main_v11)) (W3 m ρ c (Proc.devRef .tc main_v36)) (W3 m ρ c (Proc.devRef .tc main_v37)) (W3 m ρ c (Proc.devRef .tc main_v38))
    (W3 m ρ c (Proc.devRef .tc main_v39)) (W3 m ρ c (Proc.devRef .tc main_v40)) (W3 m ρ c (Proc.devRef .tc main_v41)) (W3 m ρ c (Proc.devRef .tc main_arg11)) (W3 m ρ c (Proc.devRef .tc main_v42)) = _
  rw [w3_v11 m ρ c, w3_v36 m ρ c, w3_v37 m ρ c, w3_v38 m ρ c, w3_v39 m ρ c, w3_v40 m ρ c, w3_v41 m ρ c,
    w3_arg11 m ρ c, w3_v42 m ρ c]
  exact Cert.ReferenceIdeal.RefArrays.array2_eq _ _ _ _ _ _ _ _ _ _ _ _ _ _ shapeCasts_S128_S1x128
    slices_S256x128_S128x128_0_0 slices_S256x128_S128x128_128_0

theorem w4_v1 : W4 m ρ c (Proc.devRef .tc main_v1) = Cert.ReferenceIdeal.Read.val_main_v1 (F := Ideal) (m ((c : Thread nD τ).loc main_arg13)) :=
  (W4_of_ne m ρ c main_v1 (by decide)).trans (w3_v1 m ρ c)
theorem w4_arg0 : W4 m ρ c (Proc.devRef .tc main_arg0) = (m ((c : Thread nD τ).loc main_arg0)) := (W4_of_ne m ρ c main_arg0 (by decide)).trans (w3_arg0 m ρ c)

/-! ## The result -/

/-- The result buffer at the last boundary holds the reference's result term of the launch contents. -/
theorem result : W5 m ρ c (Proc.devRef .tc main_v60) = Cert.ReferenceIdeal.Read.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  Stretches.s2_v60 (W4 m ρ c) _ _ _ _ _ _ _ _ _ _ _ _ _ _ (w4_v43 m ρ c) (w4_v1 m ρ c) (w4_arg0 m ρ c)

end Cert.KernelIdeal.Value

end
-- ==== Proof.lean ====
/-
  The certificate's claims for the hypergraph message-passing kernel: two rounds of gather, perceptron
  (linear layer, layer normalisation, cut at zero, linear layer) and scatter-mean, then a mix with the input.

  The three frames: each program terminates without a fault and leaves its arguments as it found them — the two
  kernel programs by their generated frame certificates over the two pipelines and the three stretches of host
  operations, the reference by its run read back. The idealization rewrote no operation, so it preserves the kernel
  trivially. The value claim: on the extended reals the idealized kernel and the reference end with the same
  result. The kernel computes each perceptron 8000 rows at a time and the second perceptron's first layer as two
  products with the halves of its weight matrix; the reference computes each perceptron in one piece and the first
  layer of the second as one product with the concatenation of its two inputs. Row by row both are one function
  (`RowMlp.mlp`), the concatenated product being the sum of the two half products; every other operation — the index
  rows, the gathers, the scatter-sums, their counts, the final mix — is the same operation applied to the same data.
  No finiteness of the inputs is used.
-/
import proofs.«129298_j49658411876808_2_alg».proof.Defs
import proofs.«129298_j49658411876808_2_alg».proof.Proof.Gen.Kernel
import proofs.«129298_j49658411876808_2_alg».proof.Proof.Gen.Kernel.Skeleton
import proofs.«129298_j49658411876808_2_alg».proof.Proof.Gen.Kernel.Launch
import proofs.«129298_j49658411876808_2_alg».proof.Proof.Gen.Kernel.Points
import proofs.«129298_j49658411876808_2_alg».proof.Proof.Gen.Kernel.Frame
import proofs.«129298_j49658411876808_2_alg».proof.Proof.Gen.KernelIdeal
import proofs.«129298_j49658411876808_2_alg».proof.Proof.Gen.KernelIdeal.Skeleton
import proofs.«129298_j49658411876808_2_alg».proof.Proof.Gen.KernelIdeal.Launch
import proofs.«129298_j49658411876808_2_alg».proof.Proof.Gen.KernelIdeal.Points
import proofs.«129298_j49658411876808_2_alg».proof.Proof.Gen.KernelIdeal.Frame
import proofs.«129298_j49658411876808_2_alg».proof.Proof.Gen.ReferenceIdeal
import proofs.«129298_j49658411876808_2_alg».proof.Proof.Gen.Pre_finite_inputs
import proofs.«129298_j49658411876808_2_alg».proof.Proof.Gen.ReferenceIdeal.Run
import proofs.«129298_j49658411876808_2_alg».proof.Proof.Gen.ReferenceIdeal.Read
import proofs.«129298_j49658411876808_2_alg».proof.Proof.KernelRun
import proofs.«129298_j49658411876808_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the kernel's last boundary contents at the
    result buffer: the kernel by its run, the reference because its result term of the same arguments is that. -/
theorem algebraic : Cert.algebraic_KernelIdeal_ReferenceIdeal := by
  intro m ρ m' ρ' _ hagree
  refine ⟨fun c => Cert.KernelIdeal.Gen.W5 m ρ c (Proc.devRef .tc Cert.KernelIdeal.main_v60),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W5 m ρ c (Proc.devRef .tc Cert.KernelIdeal.main_v60)
  rw [Cert.ReferenceIdeal.Read.val_main_v120_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.KernelIdeal.Value.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
